-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S128x64 .f32) (main_arg6 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S10000x128 : Shape := ⟨2, ![10000, 128]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S10000x64 : Shape := ⟨2, ![10000, 64]⟩
abbrev S1700000x64 : Shape := ⟨2, ![1700000, 64]⟩
abbrev S1x64 : Shape := ⟨2, ![1, 64]⟩

abbrev nBuf : Space → Nat
  | .hbm => 125
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000x128, .f32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S_, .f32⟩
  | .hbm, ⟨16, _⟩ => ⟨S100000, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S1700000x1, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x128, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x64, .f32⟩
  | .hbm, ⟨69, _⟩ => ⟨S100000, .i32⟩
  | .hbm, ⟨70, _⟩ => ⟨S1700000, .i32⟩
  | .hbm, ⟨71, _⟩ => ⟨S1700000, .i32⟩
  | .hbm, ⟨72, _⟩ => ⟨S_, .f32⟩
  | .hbm, ⟨73, _⟩ => ⟨S100000, .f32⟩
  | .hbm, ⟨74, _⟩ => ⟨S1700000, .f32⟩
  | .hbm, ⟨75, _⟩ => ⟨S_, .f32⟩
  | .hbm, ⟨76, _⟩ => ⟨S100000, .f32⟩
  | .hbm, ⟨77, _⟩ => ⟨S1700000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .i1⟩
  | .hbm, ⟨82, _⟩ => ⟨S100000, .f32⟩
  | .hbm, ⟨83, _⟩ => ⟨S_, .f32⟩
  | .hbm, ⟨84, _⟩ => ⟨S_, .f32⟩
  | .hbm, ⟨85, _⟩ => ⟨S100000, .f32⟩
  | .hbm, ⟨86, _⟩ => ⟨S100000, .f32⟩
  | .hbm, ⟨87, _⟩ => ⟨S_, .i32⟩
  | .hbm, ⟨88, _⟩ => ⟨S1700000, .i32⟩
  | .hbm, ⟨89, _⟩ => ⟨S1700000, .i1⟩
  | .hbm, ⟨90, _⟩ => ⟨S_, .i32⟩
  | .hbm, ⟨91, _⟩ => ⟨S1700000, .i32⟩
  | .hbm, ⟨92, _⟩ => ⟨S1700000, .i32⟩
  | .hbm, ⟨93, _⟩ => ⟨S1700000, .i32⟩
  | .hbm, ⟨94, _⟩ => ⟨S1700000x1, .i32⟩
  | .hbm, ⟨95, _⟩ => ⟨S1700000, .f32⟩
  | .hbm, ⟨96, _⟩ => ⟨S1700000, .f32⟩
  | .hbm, ⟨97, _⟩ => ⟨S_, .i32⟩
  | .hbm, ⟨98, _⟩ => ⟨S1700000, .i32⟩
  | .hbm, ⟨99, _⟩ => ⟨S1700000, .i1⟩
  | .hbm, ⟨100, _⟩ => ⟨S_, .i32⟩
  | .hbm, ⟨101, _⟩ => ⟨S1700000, .i32⟩
  | .hbm, ⟨102, _⟩ => ⟨S1700000, .i32⟩
  | .hbm, ⟨103, _⟩ => ⟨S1700000, .i32⟩
  | .hbm, ⟨104, _⟩ => ⟨S1700000x1, .i32⟩
  | .hbm, ⟨105, _⟩ => ⟨S1700000, .f32⟩
  | .hbm, ⟨106, _⟩ => ⟨S1700000, .f32⟩
  | .hbm, ⟨107, _⟩ => ⟨S1700000x1, .f32⟩
  | .hbm, ⟨108, _⟩ => ⟨S_, .i32⟩
  | .hbm, ⟨109, _⟩ => ⟨S1700000, .i32⟩
  | .hbm, ⟨110, _⟩ => ⟨S1700000, .i1⟩
  | .hbm, ⟨111, _⟩ => ⟨S_, .i32⟩
  | .hbm, ⟨112, _⟩ => ⟨S1700000, .i32⟩
  | .hbm, ⟨113, _⟩ => ⟨S1700000, .i32⟩
  | .hbm, ⟨114, _⟩ => ⟨S1700000, .i32⟩
  | .hbm, ⟨115, _⟩ => ⟨S1700000x1, .i32⟩
  | .hbm, ⟨116, _⟩ => ⟨S1700000x64, .f32⟩
  | .hbm, ⟨117, _⟩ => ⟨S1700000x64, .f32⟩
  | .hbm, ⟨118, _⟩ => ⟨S1700000x64, .f32⟩
  | .hbm, ⟨119, _⟩ => ⟨S_, .f32⟩
  | .hbm, ⟨120, _⟩ => ⟨S100000x64, .f32⟩
  | .hbm, ⟨121, _⟩ => ⟨S1700000x1, .i32⟩
  | .hbm, ⟨122, _⟩ => ⟨S100000x64, .f32⟩
  | .hbm, ⟨123, _⟩ => ⟨S1x64, .f32⟩
  | .hbm, ⟨124, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_9 : Ref sig .tc := ⟨.hbm, 72, rfl⟩
abbrev main_v52 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_11 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_12 : Ref sig .tc := ⟨.hbm, 83, rfl⟩
abbrev main_call1_v0 : Ref sig .tc := ⟨.hbm, 84, rfl⟩
abbrev main_call1_v1 : Ref sig .tc := ⟨.hbm, 85, rfl⟩
abbrev main_v60 : Ref sig .tc := ⟨.hbm, 86, rfl⟩
abbrev main_c_13 : Ref sig .tc := ⟨.hbm, 87, rfl⟩
abbrev main_v61 : Ref sig .tc := ⟨.hbm, 88, rfl⟩
abbrev main_v62 : Ref sig .tc := ⟨.hbm, 89, rfl⟩
abbrev main_c_14 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_c_15 : Ref sig .tc := ⟨.hbm, 97, rfl⟩
abbrev main_v69 : Ref sig .tc := ⟨.hbm, 98, rfl⟩
abbrev main_v70 : Ref sig .tc := ⟨.hbm, 99, rfl⟩
abbrev main_c_16 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_c_17 : Ref sig .tc := ⟨.hbm, 108, rfl⟩
abbrev main_v78 : Ref sig .tc := ⟨.hbm, 109, rfl⟩
abbrev main_v79 : Ref sig .tc := ⟨.hbm, 110, rfl⟩
abbrev main_c_18 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_19 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  dot_S10000x128_S128x128_S10000x128_1_0_0_1_n_n_wf : DotDims.WF S10000x128 S128x128 S10000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v89) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v90) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v91) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 130
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x128, .f32⟩
  | 4 => ⟨S128, .f32⟩
  | 5 => ⟨S128x64, .f32⟩
  | 6 => ⟨S64, .f32⟩
  | 7 => ⟨S1x1600000, .i32⟩
  | 8 => ⟨S1600000, .i32⟩
  | 9 => ⟨S1x1600000, .i32⟩
  | 10 => ⟨S1600000, .i32⟩
  | 11 => ⟨S100000x128, .f32⟩
  | 12 => ⟨S100000, .i32⟩
  | 13 => ⟨S1700000, .i32⟩
  | 14 => ⟨S1700000, .i32⟩
  | 15 => ⟨S_, .f32⟩
  | 16 => ⟨S100000, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S1700000x1, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x128, .f32⟩
  | 60 => ⟨S1700000x128, .f32⟩
  | 61 => ⟨S1700000x128, .f32⟩
  | 62 => ⟨S_, .f32⟩
  | 63 => ⟨S100000x128, .f32⟩
  | 64 => ⟨S1700000x1, .i32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S100000x128, .f32⟩
  | 71 => ⟨S100000x128, .f32⟩
  | 72 => ⟨S100000x64, .f32⟩
  | 73 => ⟨S100000, .i32⟩
  | 74 => ⟨S1700000, .i32⟩
  | 75 => ⟨S1700000, .i32⟩
  | 76 => ⟨S_, .f32⟩
  | 77 => ⟨S100000, .f32⟩
  | 78 => ⟨S1700000, .f32⟩
  | 79 => ⟨S_, .f32⟩
  | 80 => ⟨S100000, .f32⟩
  | 81 => ⟨S1700000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000, .f32⟩
  | 100 => ⟨S1700000, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000, .f32⟩
  | 110 => ⟨S1700000, .f32⟩
  | 111 => ⟨S1700000x1, .f32⟩
  | 112 => ⟨S_, .i32⟩
  | 113 => ⟨S1700000, .i32⟩
  | 114 => ⟨S1700000, .i1⟩
  | 115 => ⟨S_, .i32⟩
  | 116 => ⟨S1700000, .i32⟩
  | 117 => ⟨S1700000, .i32⟩
  | 118 => ⟨S1700000, .i32⟩
  | 119 => ⟨S1700000x1, .i32⟩
  | 120 => ⟨S1700000x64, .f32⟩
  | 121 => ⟨S1700000x64, .f32⟩
  | 122 => ⟨S1700000x64, .f32⟩
  | 123 => ⟨S_, .f32⟩
  | 124 => ⟨S100000x64, .f32⟩
  | 125 => ⟨S1700000x1, .i32⟩
  | 126 => ⟨S100000x64, .f32⟩
  | 127 => ⟨S1x64, .f32⟩
  | _ => ⟨S100000x128, .f32⟩

abbrev hbmTy0_1 (i : Nat) : BufTy := match i % 128 with
  | 0 => ⟨S100000x64, .f32⟩
  | 1 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_9 : Ref sig .tc := ⟨.hbm, 76, rfl⟩
abbrev main_v54 : Ref sig .tc := ⟨.hbm, 77, rfl⟩
abbrev main_v55 : Ref sig .tc := ⟨.hbm, 78, rfl⟩
abbrev main_cst_10 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v62 : Ref sig .tc := ⟨.hbm, 90, rfl⟩
abbrev main_c_13 : Ref sig .tc := ⟨.hbm, 91, rfl⟩
abbrev main_v63 : Ref sig .tc := ⟨.hbm, 92, rfl⟩
abbrev main_v64 : Ref sig .tc := ⟨.hbm, 93, rfl⟩
abbrev main_c_14 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_c_15 : Ref sig .tc := ⟨.hbm, 101, rfl⟩
abbrev main_v71 : Ref sig .tc := ⟨.hbm, 102, rfl⟩
abbrev main_v72 : Ref sig .tc := ⟨.hbm, 103, rfl⟩
abbrev main_c_16 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_c_17 : Ref sig .tc := ⟨.hbm, 112, rfl⟩
abbrev main_v80 : Ref sig .tc := ⟨.hbm, 113, rfl⟩
abbrev main_v81 : Ref sig .tc := ⟨.hbm, 114, rfl⟩
abbrev main_c_18 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_19 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.ResultRun.lean ====
/-
  The run of the kernel program with its result array named.

  The program is four grid regions among stretches of host operations.  Its generated frame certificate follows
  the buffer contents from boundary to boundary: after a stretch of host operations they are the operations'
  results over the contents before it, after a region they are what the region's write-backs leave in its
  arrays and the entry contents everywhere else.  The last boundary is the exit of the fourth region.

  Here the same launch is read once more, keeping — beside the seven argument arrays — the result array: at the
  end of every weakly fair execution it holds the contents the last boundary gives it.  What those contents ARE,
  as a function of the arguments, is the business of the modules that import this one.
-/
import proofs.«172637_j3650722202369_1_alg».proof.Proof.Gen.KernelIdeal.Frame

set_option maxRecDepth 16384

noncomputable section

namespace Cert.KernelIdeal.ResultRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result array ends at the last boundary's
    contents, and each argument array as launched. -/
theorem run : θ_run defs (onTc (τ := τ) (main (F := F))) ⟨m, fun _ => 0, ρ⟩ (fun r => ∀ c : Dev nD,
      r.2.mem ((c.tc : Thread nD τ).loc main_v91) = W11 m ρ c (Proc.devRef .tc main_v91)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v91 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c)⟩)

end Cert.KernelIdeal.ResultRun

end
-- ==== Proof.LibHostDot.lean ====
/-
  A plain matrix product on the host, read at an index.  `jnp`'s `A @ B` of an m×k by a k×n matrix lowers to a
  `dot_general` contracting the left operand's axis 1 with the right operand's axis 0; over the extended reals its entry
  (r, c) is the sum over the contracted coordinate i of `A (r, i) · B (i, c)`, whatever the precision and schedule.
  The extents are arbitrary naturals; nothing here depends on a program.  The second form takes the record by name
  together with the equation that spells its fields, for a record a program declares as a definition.
-/
import Idealize.ShloMosaic.Lib.Pipeline.Value
import Idealize.ShloMosaic.Lib.ValueIdx
import Idealize.ShloMosaic.PureOps.Ideal.Laws

noncomputable section

open scoped BigOperators

namespace Cert.LibHostDot

open Idealize.ShloMosaic Idealize.ShloMosaic.ValueIdx

/-- The host's product of an m×k by a k×n matrix, read at (r, c): the sum over the contracted coordinate. -/
theorem dotGeneral_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (c : Fin n) :
    Host.dotGeneral (⟨[1], [0], [0], [1], [], [], w⟩ : DotDims _ _ _) prec A B (ix2 r c)
      = ∑ i : Fin k, A (ix2 r i) * B (ix2 i c) := by
  simp only [Host.dotGeneral]
  rw [Ideal.dotGeneral_apply,
    ← Equiv.sum_comp (contrEquiv1 (⟨[1], [0], [0], [1], [], [], w⟩ : DotDims _ _ _) k rfl rfl).symm]
  refine Finset.sum_congr rfl fun i _ => ?_
  have c2 := contrEquiv1_symm_val
    (⟨[1], [0], [0], [1], [], [], w⟩ : DotDims ⟨2, ![m, k]⟩ ⟨2, ![k, n]⟩ ⟨2, ![m, n]⟩) k rfl rfl i
  have l2 : (⟨[1], [0], [0], [1], [], [], w⟩ : DotDims ⟨2, ![m, k]⟩ ⟨2, ![k, n]⟩ ⟨2, ![m, n]⟩).lhsIdx (ix2 r c)
      ((contrEquiv1 _ k rfl rfl).symm i) = ix2 r i := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 r c)
      ((contrEquiv1 _ k rfl rfl).symm i) = ix2 i c := by
    funext ax; apply Fin.ext
    match ax with
    | ⟨0, _⟩ => simp [DotDims.rhsIdx]; exact c2
    | ⟨1, _⟩ => simp [DotDims.rhsIdx]; rfl
  rw [l2, r2]

/-- The same for a record given by name, with the equation that spells it. -/
theorem dotGeneral_plain_apply' {m k n : ℕ} {φ₁ φ₂ : FTy}
    (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] [])
    (hd : d = ⟨[1], [0], [0], [1], [], [], w⟩)
    (prec : Option ContractPrecision) (A : FVec Ideal ⟨2, ![m, k]⟩ φ₁) (B : FVec Ideal ⟨2, ![k, n]⟩ φ₂)
    (r : Fin m) (c : Fin n) :
    Host.dotGeneral d prec A B (ix2 r c) = ∑ i : Fin k, A (ix2 r i) * B (ix2 i c) := by
  subst hd
  exact dotGeneral_plain_apply w prec A B r c

end Cert.LibHostDot

end
-- ==== Proof.LibRowOps.lean ====
/-
  Three shape operations read at an index, for rank-2 vectors with a unit leading axis and for a plain matrix
  product: the cast of a length-`b` vector to a row [1, b], the broadcast of a row [1, b] down the rows of [a, b],
  and the product of an [m, k] by a [k, n] matrix accumulated into the zero splat, over the extended reals.
-/
import Idealize.ShloMosaic.Lib.Pipeline.Value
import Idealize.ShloMosaic.Lib.ValueIdx
import Idealize.ShloMosaic.PureOps.Ideal.Laws

noncomputable section

namespace Cert.KernelBody

open Idealize.ShloMosaic Idealize.ShloMosaic.ValueIdx

variable {α : Type} {a b : ℕ}

/-- Entry `(0, k)` of the row cast of a vector is the vector's entry `k`: both sit at row-major position `k`. -/
theorem shapeCast_row_apply (x : (⟨1, ![b]⟩ : Shape).Idx → α) (h : (⟨1, ![b]⟩ : Shape).ShapeCasts ⟨2, ![1, b]⟩) (k : Fin b) :
    shapeCast ⟨2, ![1, b]⟩ x h (ix2 (0 : Fin 1) k) = x (ix1 k) :=
  shapeCast_apply x h (ix2 (0 : Fin 1) k) (ix1 k) (by
    rw [Shape.rowMajor_val_one, Shape.rowMajor_val_two]
    show k.val = 0 * b + k.val
    omega)

/-- Entry `(n, k)` of a row broadcast down the rows is the row's entry `(0, k)`. -/
theorem broadcastTo_row_apply (x : (⟨2, ![1, b]⟩ : Shape).Idx → α) (h : (⟨2, ![1, b]⟩ : Shape).Broadcasts ⟨2, ![a, b]⟩)
    (n : Fin a) (k : Fin b) : broadcastTo ⟨2, ![a, b]⟩ x h (ix2 n k) = x (ix2 (0 : Fin 1) k) :=
  broadcastTo_apply x h (ix2 n k) (ix2 (0 : Fin 1) k) (fun c => by
    match c with
    | ⟨0, _⟩ => rfl
    | ⟨1, _⟩ =>
      show k.val = if b = 1 then 0 else k.val
      have := k.isLt
      split <;> omega)

/-- The product of an m×k by a k×n matrix (contracting the left operand's axis 1 with the right operand's axis 0)
    accumulated into the zero splat, read at `(r, c)`, is the sum over the contracted coordinate of the products of
    the entries. `w` is the record's well-formedness, which a program states. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (c : Fin n) :
    matmul (⟨[1], [0], [0], [1], [], [], w⟩ : DotDims _ _ _) prec A B
        (constant (F := Ideal) ⟨2, ![m, n]⟩ .f32 0x00000000#32) (ix2 r c)
      = ∑ i : Fin k, A (ix2 r i) * B (ix2 i c) := by
  show FloatOps.matmul _ prec A B (constant (F := Ideal) ⟨2, ![m, n]⟩ .f32 0x00000000#32) (ix2 r c) = _
  rw [Ideal.matmul_constant_zero_apply,
    ← Equiv.sum_comp (contrEquiv1 (⟨[1], [0], [0], [1], [], [], w⟩ : DotDims _ _ _) k rfl rfl).symm]
  refine Finset.sum_congr rfl fun i _ => ?_
  have c2 := contrEquiv1_symm_val
    (⟨[1], [0], [0], [1], [], [], w⟩ : DotDims ⟨2, ![m, k]⟩ ⟨2, ![k, n]⟩ ⟨2, ![m, n]⟩) k rfl rfl i
  have l2 : (⟨[1], [0], [0], [1], [], [], w⟩ : DotDims ⟨2, ![m, k]⟩ ⟨2, ![k, n]⟩ ⟨2, ![m, n]⟩).lhsIdx (ix2 r c)
      ((contrEquiv1 _ k rfl rfl).symm i) = ix2 r i := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 r c)
      ((contrEquiv1 _ k rfl rfl).symm i) = ix2 i c := by
    funext ax; apply Fin.ext
    match ax with
    | ⟨0, _⟩ => simp [DotDims.rhsIdx]; exact c2
    | ⟨1, _⟩ => simp [DotDims.rhsIdx]; rfl
  rw [l2, r2]

end Cert.KernelBody

end
-- ==== Proof.LibHostRows.lean ====
import Idealize.ShloMosaic.Lib.Pipeline.Value
import Idealize.ShloMosaic.Lib.ValueIdx
import Idealize.ShloMosaic.Lib.IdealHost
import Idealize.ShloMosaic.PureOps.Ideal.Laws

/-!
# A vector broadcast down the rows, and a column sum, read at an index

`jnp` broadcasts a vector of `C` entries against an `R × C` matrix in two steps, `[C] → [1, C] → [R, C]`;
read at `(r, c)` the result is the vector's entry `c` (`rowBroadcast_apply`).  A host sum of an `R × C`
matrix over its rows, read at `c` over the extended reals, is the initial value plus the sum over `r` of
the entries `(r, c)` (`colSum_apply`).  The extents are arbitrary naturals.
-/

noncomputable section

open scoped BigOperators

namespace Cert.LibHostRows

open Idealize.ShloMosaic Idealize.ShloMosaic.ValueIdx

/-- A vector broadcast down the rows of a matrix, read at an index: the vector at the column. -/
theorem rowBroadcast_apply {α : Type} {R C : ℕ}
    (h1 : (⟨1, ![C]⟩ : Shape).BroadcastsInDim ⟨2, ![1, C]⟩ ![1])
    (h2 : (⟨2, ![1, C]⟩ : Shape).BroadcastsInDim ⟨2, ![R, C]⟩ ![0, 1])
    (y : (⟨1, ![C]⟩ : Shape).Idx → α) (i : (⟨2, ![R, C]⟩ : Shape).Idx) :
    broadcastInDim ⟨2, ![R, C]⟩ ![0, 1] h2 (broadcastInDim ⟨2, ![1, C]⟩ ![1] h1 y) i = y (ix1 (i 1)) := by
  have hc : (i 1).val < C := (i 1).isLt
  rw [broadcastInDim_apply _ h2 _ i (ix2 ⟨0, Nat.one_pos⟩ (i 1)) (fun a => match a with
      | ⟨0, _⟩ => by show (0 : ℕ) = if (1 : ℕ) = 1 then 0 else (i 0).val; rw [if_pos rfl]
      | ⟨1, _⟩ => by
        show (i 1).val = if C = 1 then 0 else (i 1).val
        split
        · omega
        · rfl),
    broadcastInDim_apply _ h1 y _ (ix1 (i 1)) (fun a => match a with
      | ⟨0, _⟩ => by
        show (i 1).val = if C = 1 then 0 else (i 1).val
        split
        · omega
        · rfl)]

/-- The host's sum of a matrix over its rows, read at a column over the extended reals. -/
theorem colSum_apply {R C : ℕ} {φ : FTy} {u : Shape}
    (hr : (⟨2, ![R, C]⟩ : Shape).ReducesTo [0] ⟨1, ![C]⟩) (hR : (⟨2, ![R, C]⟩ : Shape).Reduces [0] ⟨1, ![C]⟩)
    (hu : 0 < u.numel) (X : FVec Ideal ⟨2, ![R, C]⟩ φ) (c : u.Idx → Ideal φ) (j : (⟨1, ![C]⟩ : Shape).Idx) :
    Host.reduceAdd X c hr hu j = c (Shape.Idx.first hu) + ∑ r : Fin R, X (ix2 r (j 0)) := by
  rw [hostReduceAdd_apply, Ideal.hostReduceAdd_single hr hR]
  refine congrArg (_ + ·) (Finset.sum_congr rfl fun k _ => ?_)
  exact congrArg X (funext fun a => Fin.ext (by match a with | ⟨0, _⟩ => rfl | ⟨1, _⟩ => rfl))

end Cert.LibHostRows

end
-- ==== Proof.LibDenseLayers.lean ====
/-
  Dense layers over the extended reals, as functions of whole arrays, and the host operations that compute them.
  The extents n, k, c are arbitrary naturals; nothing here depends on a program.

  * `mm x w` is the matrix product: entry (r, q) is the sum over j of x (r, j) · w (j, q).
  * `addBias x b` adds the vector b to every row of x; `biasRelu x b` is its positive part, max (x + b) 0.
  * `addBiasRow`, `biasReluRow` take the bias as a 1 × c row; the row that is the reshape of a vector acts as the
    vector does (`addBiasRow_cast`, `biasReluRow_cast`).

  On the host a matrix product is a `dot_general` contracting axis 1 of the left operand with axis 0 of the right
  (`hostDot_eq_mm`), a bias is broadcast in two steps [c] → [1, c] → [n, c] and added (`hostAddBias_eq`), and the
  positive part is a maximum with the zero splat (`hostBiasRelu_eq`, `zeroSplat_apply`).  Each lemma reads one of
  these at an index and finds the layer function there.  No law of the extended reals beyond the meaning of the
  operations is used: the sums keep their order and nothing is distributed.
-/
import Idealize.ShloMosaic.Lib.Pipeline.Value
import Idealize.ShloMosaic.Lib.ValueIdx
import Idealize.ShloMosaic.PureOps.Ideal.Laws
import proofs.«172637_j3650722202369_1_alg».proof.Proof.LibHostDot
import proofs.«172637_j3650722202369_1_alg».proof.Proof.LibRowOps
import proofs.«172637_j3650722202369_1_alg».proof.Proof.LibHostRows

noncomputable section

open scoped BigOperators

namespace Cert.Layers

open Idealize.ShloMosaic Idealize.ShloMosaic.ValueIdx

variable {n k c : ℕ}

/-- The matrix product of an n×k by a k×c matrix. -/
def mm (x : FVec Ideal ⟨2, ![n, k]⟩ .f32) (w : FVec Ideal ⟨2, ![k, c]⟩ .f32) : FVec Ideal ⟨2, ![n, c]⟩ .f32 :=
  fun i => ∑ j : Fin k, x (ix2 (i 0) j) * w (ix2 j (i 1))

/-- A vector added to every row of a matrix. -/
def addBias (x : FVec Ideal ⟨2, ![n, c]⟩ .f32) (b : FVec Ideal ⟨1, ![c]⟩ .f32) : FVec Ideal ⟨2, ![n, c]⟩ .f32 :=
  fun i => x i + b (ix1 (i 1))

/-- The positive part of a matrix plus a vector on every row. -/
def biasRelu (x : FVec Ideal ⟨2, ![n, c]⟩ .f32) (b : FVec Ideal ⟨1, ![c]⟩ .f32) : FVec Ideal ⟨2, ![n, c]⟩ .f32 :=
  fun i => max (x i + b (ix1 (i 1))) 0

theorem mm_apply (x : FVec Ideal ⟨2, ![n, k]⟩ .f32) (w : FVec Ideal ⟨2, ![k, c]⟩ .f32) (r : Fin n) (q : Fin c) :
    mm x w (ix2 r q) = ∑ j : Fin k, x (ix2 r j) * w (ix2 j q) := rfl

/-- The host's `dot_general` of two matrices, contracting the inner axis, is the matrix product. -/
theorem hostDot_eq_mm (d : DotDims ⟨2, ![n, k]⟩ ⟨2, ![k, c]⟩ ⟨2, ![n, c]⟩)
    (wf : DotDims.WF ⟨2, ![n, k]⟩ ⟨2, ![k, c]⟩ ⟨2, ![n, c]⟩ [1] [0] [0] [1] [] [])
    (hd : d = ⟨[1], [0], [0], [1], [], [], wf⟩) (prec : Option ContractPrecision)
    (x : FVec Ideal ⟨2, ![n, k]⟩ .f32) (w : FVec Ideal ⟨2, ![k, c]⟩ .f32) :
    Host.dotGeneral d prec x w = mm x w := by
  funext i
  rw [eq_ix2 i]
  exact Cert.LibHostDot.dotGeneral_plain_apply' d wf hd prec x w (i 0) (i 1)

/-- The zero splat broadcast from a scalar reads 0 everywhere. -/
theorem zeroSplat_apply {s : Shape} (h0 : (⟨0, ![]⟩ : Shape).BroadcastsInDim s ![]) (i : s.Idx) :
    broadcastInDim s ![] h0 (constant (F := Ideal) ⟨0, ![]⟩ .f32 0x00000000#32) i = 0 := by
  rw [broadcastInDim_apply ![] h0 _ i ix0 (fun a => a.elim0), constant_apply, Ideal.ofBits_zero_f32]

/-- The host's bias: the vector broadcast to a row and then down the rows, added to the matrix. -/
theorem hostAddBias_eq (h1 : (⟨1, ![c]⟩ : Shape).BroadcastsInDim ⟨2, ![1, c]⟩ ![1])
    (h2 : (⟨2, ![1, c]⟩ : Shape).BroadcastsInDim ⟨2, ![n, c]⟩ ![0, 1])
    (x : FVec Ideal ⟨2, ![n, c]⟩ .f32) (b : FVec Ideal ⟨1, ![c]⟩ .f32) :
    addf x (broadcastInDim ⟨2, ![n, c]⟩ ![0, 1] h2 (broadcastInDim ⟨2, ![1, c]⟩ ![1] h1 b)) = addBias x b := by
  funext i
  rw [addf_apply, Cert.LibHostRows.rowBroadcast_apply h1 h2 b i]
  rfl

/-- The host's bias followed by its maximum with the zero splat is the positive part. -/
theorem hostBiasRelu_eq (h1 : (⟨1, ![c]⟩ : Shape).BroadcastsInDim ⟨2, ![1, c]⟩ ![1])
    (h2 : (⟨2, ![1, c]⟩ : Shape).BroadcastsInDim ⟨2, ![n, c]⟩ ![0, 1])
    (h0 : (⟨0, ![]⟩ : Shape).BroadcastsInDim ⟨2, ![n, c]⟩ ![])
    (x : FVec Ideal ⟨2, ![n, c]⟩ .f32) (b : FVec Ideal ⟨1, ![c]⟩ .f32) :
    maximumf (addf x (broadcastInDim ⟨2, ![n, c]⟩ ![0, 1] h2 (broadcastInDim ⟨2, ![1, c]⟩ ![1] h1 b)))
        (broadcastInDim ⟨2, ![n, c]⟩ ![] h0 (constant (F := Ideal) ⟨0, ![]⟩ .f32 0x00000000#32))
      = biasRelu x b := by
  funext i
  rw [maximumf_apply, zeroSplat_apply h0 i, hostAddBias_eq h1 h2 x b]
  rfl

/-! ## The bias given as a row

  A kernel receives the bias as the 1 × c reshape of the vector and broadcasts that row down the block's rows. -/

/-- A row added to every row of a matrix. -/
def addBiasRow (x : FVec Ideal ⟨2, ![n, c]⟩ .f32) (b : FVec Ideal ⟨2, ![1, c]⟩ .f32) : FVec Ideal ⟨2, ![n, c]⟩ .f32 :=
  fun i => x i + b (ix2 (0 : Fin 1) (i 1))

/-- The positive part of a matrix plus a row on every row. -/
def biasReluRow (x : FVec Ideal ⟨2, ![n, c]⟩ .f32) (b : FVec Ideal ⟨2, ![1, c]⟩ .f32) : FVec Ideal ⟨2, ![n, c]⟩ .f32 :=
  fun i => max (x i + b (ix2 (0 : Fin 1) (i 1))) 0

theorem addBiasRow_apply (x : FVec Ideal ⟨2, ![n, c]⟩ .f32) (b : FVec Ideal ⟨2, ![1, c]⟩ .f32) (r : Fin n) (q : Fin c) :
    addBiasRow x b (ix2 r q) = x (ix2 r q) + b (ix2 (0 : Fin 1) q) := rfl

theorem biasReluRow_apply (x : FVec Ideal ⟨2, ![n, c]⟩ .f32) (b : FVec Ideal ⟨2, ![1, c]⟩ .f32) (r : Fin n) (q : Fin c) :
    biasReluRow x b (ix2 r q) = max (x (ix2 r q) + b (ix2 (0 : Fin 1) q)) 0 := rfl

/-- The row that is the reshape of a vector adds as the vector does. -/
theorem addBiasRow_cast (h : (⟨1, ![c]⟩ : Shape).ShapeCasts ⟨2, ![1, c]⟩)
    (x : FVec Ideal ⟨2, ![n, c]⟩ .f32) (b : FVec Ideal ⟨1, ![c]⟩ .f32) :
    addBiasRow x (shapeCast ⟨2, ![1, c]⟩ b h) = addBias x b := by
  funext i
  obtain ⟨r, q, rfl⟩ : ∃ (r : Fin n) (q : Fin c), i = ix2 r q := ⟨i 0, i 1, eq_ix2 i⟩
  show x (ix2 r q) + shapeCast ⟨2, ![1, c]⟩ b h (ix2 (0 : Fin 1) q) = x (ix2 r q) + b (ix1 q)
  rw [Cert.KernelBody.shapeCast_row_apply]

theorem biasReluRow_cast (h : (⟨1, ![c]⟩ : Shape).ShapeCasts ⟨2, ![1, c]⟩)
    (x : FVec Ideal ⟨2, ![n, c]⟩ .f32) (b : FVec Ideal ⟨1, ![c]⟩ .f32) :
    biasReluRow x (shapeCast ⟨2, ![1, c]⟩ b h) = biasRelu x b := by
  funext i
  obtain ⟨r, q, rfl⟩ : ∃ (r : Fin n) (q : Fin c), i = ix2 r q := ⟨i 0, i 1, eq_ix2 i⟩
  show max (x (ix2 r q) + shapeCast ⟨2, ![1, c]⟩ b h (ix2 (0 : Fin 1) q)) 0 = max (x (ix2 r q) + b (ix1 q)) 0
  rw [Cert.KernelBody.shapeCast_row_apply]

end Cert.Layers

end
-- ==== Proof.Blocks.lean ====
/-
  Row blocks of the two layers' dense parts, at the extended reals.

  Each of the program's four grid regions cuts the 100000 node rows into ten blocks of 10000 rows and computes one
  block per grid point from the same rows of its input and a small operand held whole.  A block `x` is
  `IsRowBlock k x A` when it is rows k·10000 … k·10000 + 9999 of the array `A`.  The lemmas say that every
  body maps the block of its input to the same block of a whole-array layer function:

  * the matrix product of a row block with a weight matrix is that row block of the product (entry (r, q) is a
    sum over the inner coordinate of products of entries of row r only; the narrowing of the operands to a
    shorter float format is the identity on extended reals, and the accumulator starts at zero);
  * a bias row added to a row block, and the positive part taken, is that row block of the biased array.
-/
import proofs.«172637_j3650722202369_1_alg».proof.Proof.Gen.KernelIdeal.Skeleton
import proofs.«172637_j3650722202369_1_alg».proof.Proof.LibDenseLayers

noncomputable section

open scoped BigOperators

namespace Cert.KernelIdeal.Blocks

open Idealize.ShloMosaic Idealize.ShloMosaic.ValueIdx Cert.KernelIdeal Cert.KernelIdeal.Gen Cert.Layers

/-- `x` is rows k·10000 onward of `A` (ten thousand of them, all C columns). -/
def IsRowBlock {C : ℕ} (k : ℕ) (x : (⟨2, ![10000, C]⟩ : Shape).Idx → EReal) (A : (⟨2, ![100000, C]⟩ : Shape).Idx → EReal) : Prop :=
  ∀ (y : (⟨2, ![10000, C]⟩ : Shape).Idx) (z : (⟨2, ![100000, C]⟩ : Shape).Idx),
    (z 0).val = k * 10000 + (y 0).val → (z 1).val = (y 1).val → x y = A z

theorem IsRowBlock.at {C : ℕ} {k : ℕ} {x : (⟨2, ![10000, C]⟩ : Shape).Idx → EReal} {A : (⟨2, ![100000, C]⟩ : Shape).Idx → EReal}
    (h : IsRowBlock k x A) (p : Fin 10000) (r : Fin 100000) (hr : r.val = k * 10000 + p.val) (q : Fin C) :
    x (ix2 p q) = A (ix2 r q) := h _ _ hr rfl

/-- First layer's product: entry (p, q) of the body's result is the sum over the 128 inner coordinates. -/
theorem linear128_apply (x0 : Vec Ideal S10000x128 .f32) (x1 : Vec Ideal S128x128 .f32) (p : Fin 10000) (q : Fin 128) :
    k0_pay1 (F := Ideal) x0 x1 (ix2 p q) = ∑ i : Fin 128, x0 (ix2 p i) * x1 (ix2 i q) := by
  unfold k0_pay1
  exact Cert.KernelBody.matmul_plain_zero_apply dot_S10000x128_S128x128_S10000x128_1_0_0_1_n_n.wf none
    (truncf .bf16 x0 bitsLt_bf16_f32) (truncf .bf16 x1 bitsLt_bf16_f32) p q

/-- Second layer's product, 128 inner coordinates, 64 columns. -/
theorem linear64_apply (x0 : Vec Ideal S10000x128 .f32) (x1 : Vec Ideal S128x64 .f32) (p : Fin 10000) (q : Fin 64) :
    k2_pay1 (F := Ideal) x0 x1 (ix2 p q) = ∑ i : Fin 128, x0 (ix2 p i) * x1 (ix2 i q) := by
  unfold k2_pay1
  refine (Cert.KernelBody.matmul_plain_zero_apply dot_S10000x128_S128x64_S10000x64_1_0_0_1_n_n.wf none
    (truncf .bf16 (shapeCast S10000x128 x0 shapeCasts_S10000x128_S10000x128) bitsLt_bf16_f32) (truncf .bf16 x1 bitsLt_bf16_f32) p q).trans ?_
  refine Finset.sum_congr rfl fun i _ => ?_
  show shapeCast S10000x128 x0 shapeCasts_S10000x128_S10000x128 (ix2 p i) * x1 (ix2 i q) = _
  rw [shapeCast_self]

/-- The row block of a product is the product of the row block. -/
theorem linear128_block {k : ℕ} {x0 : Vec Ideal S10000x128 .f32} {A : FVec Ideal S100000x128 .f32} (x1 : Vec Ideal S128x128 .f32)
    (h : IsRowBlock k x0 A) : IsRowBlock k (k0_pay1 (F := Ideal) x0 x1) (mm (n := 100000) (k := 128) (c := 128) A x1) := by
  intro y z hz0 hz1
  obtain ⟨p, q, rfl⟩ : ∃ (p : Fin 10000) (q : Fin 128), y = ix2 p q := ⟨y 0, y 1, eq_ix2 y⟩
  obtain ⟨r, s, rfl⟩ : ∃ (r : Fin 100000) (s : Fin 128), z = ix2 r s := ⟨z 0, z 1, eq_ix2 z⟩
  have hr : r.val = k * 10000 + p.val := hz0
  obtain rfl : s = q := Fin.ext hz1
  rw [linear128_apply, mm_apply]
  refine Finset.sum_congr rfl fun i _ => ?_
  rw [h.at p r hr i]

theorem linear64_block {k : ℕ} {x0 : Vec Ideal S10000x128 .f32} {A : FVec Ideal S100000x128 .f32} (x1 : Vec Ideal S128x64 .f32)
    (h : IsRowBlock k x0 A) : IsRowBlock k (k2_pay1 (F := Ideal) x0 x1) (mm (n := 100000) (k := 128) (c := 64) A x1) := by
  intro y z hz0 hz1
  obtain ⟨p, q, rfl⟩ : ∃ (p : Fin 10000) (q : Fin 64), y = ix2 p q := ⟨y 0, y 1, eq_ix2 y⟩
  obtain ⟨r, s, rfl⟩ : ∃ (r : Fin 100000) (s : Fin 64), z = ix2 r s := ⟨z 0, z 1, eq_ix2 z⟩
  have hr : r.val = k * 10000 + p.val := hz0
  obtain rfl : s = q := Fin.ext hz1
  rw [linear64_apply, mm_apply]
  refine Finset.sum_congr rfl fun i _ => ?_
  rw [h.at p r hr i]

/-- The bias row added to a block and the positive part taken, entry by entry. -/
theorem biasRelu128_apply (x0 : Vec Ideal S10000x128 .f32) (x1 : Vec Ideal S1x128 .f32) (p : Fin 10000) (q : Fin 128) :
    k1_pay1 (F := Ideal) x0 x1 (ix2 p q) = max (x0 (ix2 p q) + x1 (ix2 (0 : Fin 1) q)) 0 := by
  unfold k1_pay1
  show max (shapeCast S10000x128 x0 shapeCasts_S10000x128_S10000x128 (ix2 p q)
      + broadcastTo S10000x128 (shapeCast S1x128 x1 shapeCasts_S1x128_S1x128) broadcasts_S1x128_S10000x128 (ix2 p q))
      (Ideal.ofBits .f32 0x00000000#32) = _
  rw [shapeCast_self, shapeCast_self, Cert.KernelBody.broadcastTo_row_apply, Ideal.ofBits_zero_f32]

/-- The bias row added to a block, entry by entry. -/
theorem bias64_apply (x0 : Vec Ideal S10000x64 .f32) (x1 : Vec Ideal S1x64 .f32) (p : Fin 10000) (q : Fin 64) :
    k3_pay1 (F := Ideal) x0 x1 (ix2 p q) = x0 (ix2 p q) + x1 (ix2 (0 : Fin 1) q) := by
  unfold k3_pay1
  show shapeCast S10000x64 x0 shapeCasts_S10000x64_S10000x64 (ix2 p q)
      + broadcastTo S10000x64 (shapeCast S1x64 x1 shapeCasts_S1x64_S1x64) broadcasts_S1x64_S10000x64 (ix2 p q) = _
  rw [shapeCast_self, shapeCast_self, Cert.KernelBody.broadcastTo_row_apply]

theorem biasRelu128_block {k : ℕ} {x0 : Vec Ideal S10000x128 .f32} {A : FVec Ideal S100000x128 .f32} (x1 : Vec Ideal S1x128 .f32)
    (h : IsRowBlock k x0 A) : IsRowBlock k (k1_pay1 (F := Ideal) x0 x1) (biasReluRow (n := 100000) (c := 128) A x1) := by
  intro y z hz0 hz1
  obtain ⟨p, q, rfl⟩ : ∃ (p : Fin 10000) (q : Fin 128), y = ix2 p q := ⟨y 0, y 1, eq_ix2 y⟩
  obtain ⟨r, s, rfl⟩ : ∃ (r : Fin 100000) (s : Fin 128), z = ix2 r s := ⟨z 0, z 1, eq_ix2 z⟩
  have hr : r.val = k * 10000 + p.val := hz0
  obtain rfl : s = q := Fin.ext hz1
  rw [biasRelu128_apply, biasReluRow_apply, h.at p r hr s]

theorem bias64_block {k : ℕ} {x0 : Vec Ideal S10000x64 .f32} {A : FVec Ideal S100000x64 .f32} (x1 : Vec Ideal S1x64 .f32)
    (h : IsRowBlock k x0 A) : IsRowBlock k (k3_pay1 (F := Ideal) x0 x1) (addBiasRow (n := 100000) (c := 64) A x1) := by
  intro y z hz0 hz1
  obtain ⟨p, q, rfl⟩ : ∃ (p : Fin 10000) (q : Fin 64), y = ix2 p q := ⟨y 0, y 1, eq_ix2 y⟩
  obtain ⟨r, s, rfl⟩ : ∃ (r : Fin 100000) (s : Fin 64), z = ix2 r s := ⟨z 0, z 1, eq_ix2 z⟩
  have hr : r.val = k * 10000 + p.val := hz0
  obtain rfl : s = q := Fin.ext hz1
  rw [bias64_apply, addBiasRow_apply, h.at p r hr s]

end Cert.KernelIdeal.Blocks

end
-- ==== Proof.Arrays.lean ====
/-
  What each of the four grid regions leaves in its output array, as one function of the arrays it finds.

  A region runs ten grid points; point t fetches rows t·10000 … t·10000 + 9999 of its first operand (window 0),
  holds its second, small operand whole (window 1), and writes back the same rows of its output (window 2).  By the
  block lemmas every point writes back block t of a whole-array layer function of the two operands; the ten blocks
  tile the 100000 rows, so the array ends holding that function everywhere.  The statements are at any contents
  `V` of the buffers at the region's entry: which contents those are is the run's business.
-/
import proofs.«172637_j3650722202369_1_alg».proof.Proof.Gen.KernelIdeal.Frame
import proofs.«172637_j3650722202369_1_alg».proof.Proof.Blocks

set_option maxRecDepth 16384

noncomputable section

namespace Cert.KernelIdeal.Arrays

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Blocks Cert.Layers

variable (V : (c : Dev nD) → (b : Ref sig .tc) → Buf (Elt Ideal) ((c : Thread nD τ).loc b))

theorem hz : (![0, 0] : Fin 2 → Nat) = fun _ => 0 := funext fun a => by fin_cases a <;> rfl

/-! ## Region 0: the first layer's product x · W1 -/

/-- The printed index maps over the ten grid points: the row-blocked windows sit at block (t, 0), the small operand at (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every one of the ten row blocks is some grid point's. -/
theorem onto0 : ∀ q : Fin 10, ∃ t : Fin cfg0.N, t.val = q.val :=
  (by decide +kernel : ∀ q : Fin 10, ∃ t : Fin grid0.N, t.val = q.val)

/-- The block of the row-blocked input at point t is rows t·10000 onward of the input array. -/
theorem in0 (c : Dev nD) (t : Fin cfg0.N) :
    IsRowBlock (C := 128) t.val (iblk0 V c 0 t) (V c main_arg0) := by
  obtain ⟨e0, e1, e2, e3, e4, e5⟩ := idx0 t
  intro y z hz0 hz1
  show V c main_arg0 (((cfg0.win 0).blk t).view.emb y) = V c main_arg0 z
  refine congrArg _ ?_
  funext a; apply Fin.ext
  match a with
  | ⟨0, _⟩ => show win0_0.index t (0 : Fin 2) * 10000 + 1 * (y 0).val = (z 0).val; omega
  | ⟨1, _⟩ => show win0_0.index t (1 : Fin 2) * 128 + 1 * (y 1).val = (z 1).val; omega

/-- The small operand's block is the whole operand at every point. -/
theorem small0 (c : Dev nD) (t : Fin cfg0.N) : iblk0 V c 1 t = V c main_arg3 := by
  obtain ⟨e0, e1, e2, e3, e4, e5⟩ := idx0 t
  funext y
  show V c main_arg3 (((cfg0.win 1).blk t).view.emb y) = V c main_arg3 y
  refine congrArg _ ?_
  funext a; apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- What point t writes back is block t of the layer function of the arrays the region finds. -/
theorem flushed0 (c : Dev nD) (t : Fin cfg0.N) :
    (dat0 V c).flushed 2 t = ((cfg0.win 2).blk t).view.read (Elt Ideal) (mm (n := 100000) (k := 128) (c := 128) (V c main_arg0) (V c main_arg3)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  obtain ⟨e0, e1, e2, e3, e4, e5⟩ := idx0 t
  funext j
  show k0_pay1 (iblk0 V c 0 t) (iblk0 V c 1 t) j
    = mm (n := 100000) (k := 128) (c := 128) (V c main_arg0) (V c main_arg3) (((cfg0.win 2).blk t).view.emb j)
  rw [small0 V c t]
  exact linear128_block (k := t.val) (x0 := iblk0 V c 0 t) (A := V c main_arg0) (V c main_arg3) (in0 V c t) j
    (((cfg0.win 2).blk t).view.emb j)
    (by show win0_2.index t (0 : Fin 2) * 10000 + 1 * (j 0).val = t.val * 10000 + (j 0).val; omega)
    (by show win0_2.index t (1 : Fin 2) * 128 + 1 * (j 1).val = (j 1).val; omega)

/-- An index is in point t's output block iff each coordinate is in the block's range. -/
theorem mem_blk0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v4).slice (win0_2.rect t)).set ↔ _
  rw [View.set_slice_whole, Rect.mem_set_unit]
  exact Iff.rfl

/-- The ten output blocks cover the array: row r is in block r / 10000. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := onto0 ⟨(i 0).val / 10000, by omega⟩
  have ht' : t.val = (i 0).val / 10000 := ht
  obtain ⟨e0, e1, e2, e3, e4, e5⟩ := idx0 t
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The output array after the region: the first layer's product x · W1. -/
theorem arr0 (c : Dev nD) : (dat0 V c).arrAt 2 cfg0.N = mm (n := 100000) (k := 128) (c := 128) (V c main_arg0) (V c main_arg3) :=
  (dat0 V c).arrAt_eq_of_cover 2 _ (fun t _ => flushed0 V c t) (cover0)

/-! ## Region 1: the first layer's bias and positive part -/

/-- The printed index maps over the ten grid points: the row-blocked windows sit at block (t, 0), the small operand at (0, 0). -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Every one of the ten row blocks is some grid point's. -/
theorem onto1 : ∀ q : Fin 10, ∃ t : Fin cfg1.N, t.val = q.val :=
  (by decide +kernel : ∀ q : Fin 10, ∃ t : Fin grid1.N, t.val = q.val)

/-- The block of the row-blocked input at point t is rows t·10000 onward of the input array. -/
theorem in1 (c : Dev nD) (t : Fin cfg1.N) :
    IsRowBlock (C := 128) t.val (iblk1 V c 0 t) (V c main_v45) := by
  obtain ⟨e0, e1, e2, e3, e4, e5⟩ := idx1 t
  intro y z hz0 hz1
  show V c main_v45 (((cfg1.win 0).blk t).view.emb y) = V c main_v45 z
  refine congrArg _ ?_
  funext a; apply Fin.ext
  match a with
  | ⟨0, _⟩ => show win1_0.index t (0 : Fin 2) * 10000 + 1 * (y 0).val = (z 0).val; omega
  | ⟨1, _⟩ => show win1_0.index t (1 : Fin 2) * 128 + 1 * (y 1).val = (z 1).val; omega

/-- The small operand's block is the whole operand at every point. -/
theorem small1 (c : Dev nD) (t : Fin cfg1.N) : iblk1 V c 1 t = V c main_v46 := by
  obtain ⟨e0, e1, e2, e3, e4, e5⟩ := idx1 t
  funext y
  show V c main_v46 (((cfg1.win 1).blk t).view.emb y) = V c main_v46 y
  refine congrArg _ ?_
  funext a; apply Fin.ext
  match a with
  | ⟨0, _⟩ => show win1_1.index t (0 : Fin 2) * 1 + 1 * (y 0).val = (y 0).val; omega
  | ⟨1, _⟩ => show win1_1.index t (1 : Fin 2) * 128 + 1 * (y 1).val = (y 1).val; omega

/-- What point t writes back is block t of the layer function of the arrays the region finds. -/
theorem flushed1 (c : Dev nD) (t : Fin cfg1.N) :
    (dat1 V c).flushed 2 t = ((cfg1.win 2).blk t).view.read (Elt Ideal) (biasReluRow (n := 100000) (c := 128) (V c main_v45) (V c main_v46)) := by
  show (cfg1.win 2).cut (grid1.coords t) ((dat1 V c).after 2 t) = _
  rw [after1_2]
  unfold out1_2
  rw [View.canon_unit_zero hz]
  simp only [View.ld_unit_zero (S := S10000x128) hz, View.ld_unit_zero (S := S1x128) hz]
  obtain ⟨e0, e1, e2, e3, e4, e5⟩ := idx1 t
  funext j
  show k1_pay1 (iblk1 V c 0 t) (iblk1 V c 1 t) j
    = biasReluRow (n := 100000) (c := 128) (V c main_v45) (V c main_v46) (((cfg1.win 2).blk t).view.emb j)
  rw [small1 V c t]
  exact biasRelu128_block (k := t.val) (x0 := iblk1 V c 0 t) (A := V c main_v45) (V c main_v46) (in1 V c t) j
    (((cfg1.win 2).blk t).view.emb j)
    (by show win1_2.index t (0 : Fin 2) * 10000 + 1 * (j 0).val = t.val * 10000 + (j 0).val; omega)
    (by show win1_2.index t (1 : Fin 2) * 128 + 1 * (j 1).val = (j 1).val; omega)

/-- An index is in point t's output block iff each coordinate is in the block's range. -/
theorem mem_blk1 (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v47).slice (win1_2.rect t)).set ↔ _
  rw [View.set_slice_whole, Rect.mem_set_unit]
  exact Iff.rfl

/-- The ten output blocks cover the array: row r is in block r / 10000. -/
theorem cover1 (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := onto1 ⟨(i 0).val / 10000, by omega⟩
  have ht' : t.val = (i 0).val / 10000 := ht
  obtain ⟨e0, e1, e2, e3, e4, e5⟩ := idx1 t
  refine ⟨t, flush1_2 t, ?_⟩
  rw [mem_blk1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- The output array after the region: the first layer's bias and positive part. -/
theorem arr1 (c : Dev nD) : (dat1 V c).arrAt 2 cfg1.N = biasReluRow (n := 100000) (c := 128) (V c main_v45) (V c main_v46) :=
  (dat1 V c).arrAt_eq_of_cover 2 _ (fun t _ => flushed1 V c t) (cover1)

/-! ## Region 2: the second layer's product h · W2 -/

/-- The printed index maps over the ten grid points: the row-blocked windows sit at block (t, 0), the small operand at (0, 0). -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Every one of the ten row blocks is some grid point's. -/
theorem onto2 : ∀ q : Fin 10, ∃ t : Fin cfg2.N, t.val = q.val :=
  (by decide +kernel : ∀ q : Fin 10, ∃ t : Fin grid2.N, t.val = q.val)

/-- The block of the row-blocked input at point t is rows t·10000 onward of the input array. -/
theorem in2 (c : Dev nD) (t : Fin cfg2.N) :
    IsRowBlock (C := 128) t.val (iblk2 V c 0 t) (V c main_v47) := by
  obtain ⟨e0, e1, e2, e3, e4, e5⟩ := idx2 t
  intro y z hz0 hz1
  show V c main_v47 (((cfg2.win 0).blk t).view.emb y) = V c main_v47 z
  refine congrArg _ ?_
  funext a; apply Fin.ext
  match a with
  | ⟨0, _⟩ => show win2_0.index t (0 : Fin 2) * 10000 + 1 * (y 0).val = (z 0).val; omega
  | ⟨1, _⟩ => show win2_0.index t (1 : Fin 2) * 128 + 1 * (y 1).val = (z 1).val; omega

/-- The small operand's block is the whole operand at every point. -/
theorem small2 (c : Dev nD) (t : Fin cfg2.N) : iblk2 V c 1 t = V c main_arg5 := by
  obtain ⟨e0, e1, e2, e3, e4, e5⟩ := idx2 t
  funext y
  show V c main_arg5 (((cfg2.win 1).blk t).view.emb y) = V c main_arg5 y
  refine congrArg _ ?_
  funext a; apply Fin.ext
  match a with
  | ⟨0, _⟩ => show win2_1.index t (0 : Fin 2) * 128 + 1 * (y 0).val = (y 0).val; omega
  | ⟨1, _⟩ => show win2_1.index t (1 : Fin 2) * 64 + 1 * (y 1).val = (y 1).val; omega

/-- What point t writes back is block t of the layer function of the arrays the region finds. -/
theorem flushed2 (c : Dev nD) (t : Fin cfg2.N) :
    (dat2 V c).flushed 2 t = ((cfg2.win 2).blk t).view.read (Elt Ideal) (mm (n := 100000) (k := 128) (c := 64) (V c main_v47) (V c main_arg5)) := by
  show (cfg2.win 2).cut (grid2.coords t) ((dat2 V c).after 2 t) = _
  rw [after2_2]
  unfold out2_2
  rw [View.canon_unit_zero hz]
  simp only [View.ld_unit_zero (S := S10000x128) hz, View.ld_unit_zero (S := S128x64) hz]
  obtain ⟨e0, e1, e2, e3, e4, e5⟩ := idx2 t
  funext j
  show k2_pay1 (iblk2 V c 0 t) (iblk2 V c 1 t) j
    = mm (n := 100000) (k := 128) (c := 64) (V c main_v47) (V c main_arg5) (((cfg2.win 2).blk t).view.emb j)
  rw [small2 V c t]
  exact linear64_block (k := t.val) (x0 := iblk2 V c 0 t) (A := V c main_v47) (V c main_arg5) (in2 V c t) j
    (((cfg2.win 2).blk t).view.emb j)
    (by show win2_2.index t (0 : Fin 2) * 10000 + 1 * (j 0).val = t.val * 10000 + (j 0).val; omega)
    (by show win2_2.index t (1 : Fin 2) * 64 + 1 * (j 1).val = (j 1).val; omega)

/-- An index is in point t's output block iff each coordinate is in the block's range. -/
theorem mem_blk2 (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v48).slice (win2_2.rect t)).set ↔ _
  rw [View.set_slice_whole, Rect.mem_set_unit]
  exact Iff.rfl

/-- The ten output blocks cover the array: row r is in block r / 10000. -/
theorem cover2 (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := onto2 ⟨(i 0).val / 10000, by omega⟩
  have ht' : t.val = (i 0).val / 10000 := ht
  obtain ⟨e0, e1, e2, e3, e4, e5⟩ := idx2 t
  refine ⟨t, flush2_2 t, ?_⟩
  rw [mem_blk2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- The output array after the region: the second layer's product h · W2. -/
theorem arr2 (c : Dev nD) : (dat2 V c).arrAt 2 cfg2.N = mm (n := 100000) (k := 128) (c := 64) (V c main_v47) (V c main_arg5) :=
  (dat2 V c).arrAt_eq_of_cover 2 _ (fun t _ => flushed2 V c t) (cover2)

/-! ## Region 3: the second layer's bias -/

/-- The printed index maps over the ten grid points: the row-blocked windows sit at block (t, 0), the small operand at (0, 0). -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Every one of the ten row blocks is some grid point's. -/
theorem onto3 : ∀ q : Fin 10, ∃ t : Fin cfg3.N, t.val = q.val :=
  (by decide +kernel : ∀ q : Fin 10, ∃ t : Fin grid3.N, t.val = q.val)

/-- The block of the row-blocked input at point t is rows t·10000 onward of the input array. -/
theorem in3 (c : Dev nD) (t : Fin cfg3.N) :
    IsRowBlock (C := 64) t.val (iblk3 V c 0 t) (V c main_v89) := by
  obtain ⟨e0, e1, e2, e3, e4, e5⟩ := idx3 t
  intro y z hz0 hz1
  show V c main_v89 (((cfg3.win 0).blk t).view.emb y) = V c main_v89 z
  refine congrArg _ ?_
  funext a; apply Fin.ext
  match a with
  | ⟨0, _⟩ => show win3_0.index t (0 : Fin 2) * 10000 + 1 * (y 0).val = (z 0).val; omega
  | ⟨1, _⟩ => show win3_0.index t (1 : Fin 2) * 64 + 1 * (y 1).val = (z 1).val; omega

/-- The small operand's block is the whole operand at every point. -/
theorem small3 (c : Dev nD) (t : Fin cfg3.N) : iblk3 V c 1 t = V c main_v90 := by
  obtain ⟨e0, e1, e2, e3, e4, e5⟩ := idx3 t
  funext y
  show V c main_v90 (((cfg3.win 1).blk t).view.emb y) = V c main_v90 y
  refine congrArg _ ?_
  funext a; apply Fin.ext
  match a with
  | ⟨0, _⟩ => show win3_1.index t (0 : Fin 2) * 1 + 1 * (y 0).val = (y 0).val; omega
  | ⟨1, _⟩ => show win3_1.index t (1 : Fin 2) * 64 + 1 * (y 1).val = (y 1).val; omega

/-- What point t writes back is block t of the layer function of the arrays the region finds. -/
theorem flushed3 (c : Dev nD) (t : Fin cfg3.N) :
    (dat3 V c).flushed 2 t = ((cfg3.win 2).blk t).view.read (Elt Ideal) (addBiasRow (n := 100000) (c := 64) (V c main_v89) (V c main_v90)) := by
  show (cfg3.win 2).cut (grid3.coords t) ((dat3 V c).after 2 t) = _
  rw [after3_2]
  unfold out3_2
  rw [View.canon_unit_zero hz]
  simp only [View.ld_unit_zero (S := S10000x64) hz, View.ld_unit_zero (S := S1x64) hz]
  obtain ⟨e0, e1, e2, e3, e4, e5⟩ := idx3 t
  funext j
  show k3_pay1 (iblk3 V c 0 t) (iblk3 V c 1 t) j
    = addBiasRow (n := 100000) (c := 64) (V c main_v89) (V c main_v90) (((cfg3.win 2).blk t).view.emb j)
  rw [small3 V c t]
  exact bias64_block (k := t.val) (x0 := iblk3 V c 0 t) (A := V c main_v89) (V c main_v90) (in3 V c t) j
    (((cfg3.win 2).blk t).view.emb j)
    (by show win3_2.index t (0 : Fin 2) * 10000 + 1 * (j 0).val = t.val * 10000 + (j 0).val; omega)
    (by show win3_2.index t (1 : Fin 2) * 64 + 1 * (j 1).val = (j 1).val; omega)

/-- An index is in point t's output block iff each coordinate is in the block's range. -/
theorem mem_blk3 (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v91).slice (win3_2.rect t)).set ↔ _
  rw [View.set_slice_whole, Rect.mem_set_unit]
  exact Iff.rfl

/-- The ten output blocks cover the array: row r is in block r / 10000. -/
theorem cover3 (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ := onto3 ⟨(i 0).val / 10000, by omega⟩
  have ht' : t.val = (i 0).val / 10000 := ht
  obtain ⟨e0, e1, e2, e3, e4, e5⟩ := idx3 t
  refine ⟨t, flush3_2 t, ?_⟩
  rw [mem_blk3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- The output array after the region: the second layer's bias. -/
theorem arr3 (c : Dev nD) : (dat3 V c).arrAt 2 cfg3.N = addBiasRow (n := 100000) (c := 64) (V c main_v89) (V c main_v90) :=
  (dat3 V c).arrAt_eq_of_cover 2 _ (fun t _ => flushed3 V c t) (cover3)

end Cert.KernelIdeal.Arrays

end
-- ==== Proof.Spec.lean ====
/-
  The two-layer graph convolution as one function of the argument arrays, and the reference program's result as
  that function.

  One layer maps node features h (100000 rows) to  Â·h + b,  where the aggregation Â sums, into each destination
  row, the source rows scaled by the symmetric normalisation  d⁻¹ᐟ²[src] · w · d⁻¹ᐟ²[dst]  over the 1600000 edges
  and the 100000 self loops of weight one (d the weighted in-degree, the inverse root taken where d > 0, zero
  elsewhere).  The aggregation does not look at the features except to gather and scale their rows, and both
  programs spell it with the very same host operations; so it is kept here as ONE opaque function of the
  features, the edge list and the edge weights, built from the reference's own stages: the edge-only part (the
  normalisation coefficients, the wrapped source indices, the destination indices, the zero array) is the
  reference's, and the features enter through the one row gather.  Nothing in this development opens it.

  The network is then   addBias (agg64 (mm (biasRelu (agg128 (mm x W1) ei ew) b1) W2) ei ew) b2,
  with `mm` the matrix product and `biasRelu`, `addBias` the row-wise bias with and without positive part.
  The reference computes each product by a `dot_general`, each bias by two broadcasts and an addition, and
  the positive part by a maximum with the zero splat: those are the dense-layer lemmas.
-/
import proofs.«172637_j3650722202369_1_alg».proof.Proof.Gen.ReferenceIdeal.Read
import proofs.«172637_j3650722202369_1_alg».proof.Proof.LibDenseLayers

noncomputable section

namespace Cert.Spec

open Idealize.ShloMosaic Cert.ReferenceIdeal Cert.ReferenceIdeal.Gen Cert.ReferenceIdeal.Read Cert.Layers

/-- The first layer's aggregation of 128-wide features `h` along the edges `x1` with weights `x2`. -/
def agg128 (h : FVec Ideal S100000x128 .f32) (x1 : (⟨S2x1600000, .i32⟩ : BufTy).Contents (Elt Ideal)) (x2 : FVec Ideal S1600000 .f32) :
    FVec Ideal S100000x128 .f32 :=
  Host.scatterAdd (F := Ideal) scatter_S100000x128_S1700000x1_S1700000x128_1_0_0_1 (val_main_v43 (F := Ideal)) (val_main_v44 (F := Ideal) x1)
    (mulf (val_main_v41 (F := Ideal) x1 x2)
      (Host.gather gather_S100000x128_S1700000x1_S1700000x128_1_0_n_n_0_1_1128 h (val_main_v39 (F := Ideal) x1)))

/-- The second layer's aggregation of 64-wide features. -/
def agg64 (h : FVec Ideal S100000x64 .f32) (x1 : (⟨S2x1600000, .i32⟩ : BufTy).Contents (Elt Ideal)) (x2 : FVec Ideal S1600000 .f32) :
    FVec Ideal S100000x64 .f32 :=
  Host.scatterAdd (F := Ideal) scatter_S100000x64_S1700000x1_S1700000x64_1_0_0_1 (val_main_v89 (F := Ideal)) (val_main_v90 (F := Ideal) x1)
    (mulf (val_main_v87 (F := Ideal) x1 x2)
      (Host.gather gather_S100000x64_S1700000x1_S1700000x64_1_0_n_n_0_1_164 h (val_main_v85 (F := Ideal) x1)))

/-- The whole network. -/
def network (x0 : FVec Ideal S100000x128 .f32) (x1 : (⟨S2x1600000, .i32⟩ : BufTy).Contents (Elt Ideal)) (x2 : FVec Ideal S1600000 .f32)
    (x3 : FVec Ideal S128x128 .f32) (x4 : FVec Ideal S128 .f32) (x5 : FVec Ideal S128x64 .f32) (x6 : FVec Ideal S64 .f32) :
    FVec Ideal S100000x64 .f32 :=
  addBias (n := 100000) (c := 64)
    (agg64 (mm (n := 100000) (k := 128) (c := 64)
      (biasRelu (n := 100000) (c := 128) (agg128 (mm (n := 100000) (k := 128) (c := 128) x0 x3) x1 x2) x4) x5) x1 x2) x6

/-- The reference's result is the network of its arguments. -/
theorem reference_eq (x0 : FVec Ideal S100000x128 .f32) (x1 : (⟨S2x1600000, .i32⟩ : BufTy).Contents (Elt Ideal)) (x2 : FVec Ideal S1600000 .f32)
    (x3 : FVec Ideal S128x128 .f32) (x4 : FVec Ideal S128 .f32) (x5 : FVec Ideal S128x64 .f32) (x6 : FVec Ideal S64 .f32) :
    val_main_v94 (F := Ideal) x0 x1 x2 x3 x4 x5 x6 = network x0 x1 x2 x3 x4 x5 x6 := by
  have e1 : val_main_v4 (F := Ideal) x0 x3 = mm (n := 100000) (k := 128) (c := 128) x0 x3 :=
    hostDot_eq_mm dot_S100000x128_S128x128_S100000x128_1_0_0_1_n_n dot_S100000x128_S128x128_S100000x128_1_0_0_1_n_n.wf rfl none x0 x3
  have e2 : val_main_v45 (F := Ideal) x0 x1 x2 x3 = agg128 (val_main_v4 (F := Ideal) x0 x3) x1 x2 := rfl
  have e3 : val_main_v49 (F := Ideal) x0 x1 x2 x3 x4 = biasRelu (n := 100000) (c := 128) (val_main_v45 (F := Ideal) x0 x1 x2 x3) x4 :=
    hostBiasRelu_eq bcast_S128_S1x128_1 bcast_S1x128_S100000x128_0_1 bcast_S_S100000x128 (val_main_v45 (F := Ideal) x0 x1 x2 x3) x4
  have e4 : val_main_v50 (F := Ideal) x0 x1 x2 x3 x4 x5 = mm (n := 100000) (k := 128) (c := 64) (val_main_v49 (F := Ideal) x0 x1 x2 x3 x4) x5 :=
    hostDot_eq_mm dot_S100000x128_S128x64_S100000x64_1_0_0_1_n_n dot_S100000x128_S128x64_S100000x64_1_0_0_1_n_n.wf rfl none _ x5
  have e5 : val_main_v91 (F := Ideal) x0 x1 x2 x3 x4 x5 = agg64 (val_main_v50 (F := Ideal) x0 x1 x2 x3 x4 x5) x1 x2 := rfl
  have e6 : val_main_v94 (F := Ideal) x0 x1 x2 x3 x4 x5 x6 = addBias (n := 100000) (c := 64) (val_main_v91 (F := Ideal) x0 x1 x2 x3 x4 x5) x6 :=
    hostAddBias_eq bcast_S64_S1x64_1 bcast_S1x64_S100000x64_0_1 (val_main_v91 (F := Ideal) x0 x1 x2 x3 x4 x5) x6
  rw [e6, e5, e4, e3, e2, e1]
  rfl

end Cert.Spec

end
-- ==== Proof.Boundaries.lean ====
/-
  The buffer contents at the boundaries of the kernel program, read as functions of the argument arrays.

  The generated frame follows the contents from the launch (W0) through a first stretch of host operations (W1:
  the two rows of the edge list cut out), the first product region (W2), the first aggregation — three stretches
  of host operations — (W5), the first bias region (W6), the second product region (W7), the second aggregation
  (W10) and the second bias region (W11).  Here each buffer a later step reads is given its value at each
  boundary:

  * a host stretch's results are its operations applied to the contents before it, and a buffer it does not
    write keeps its contents;
  * a region's output array is the layer function of the arrays it finds (module Arrays), and every other buffer
    keeps its contents;
  * the aggregation's operations, applied to the features and the two edge rows, are the aggregation function of
    the specification — the same operations in the same order, so the two terms are one.

  The last line: the result array ends holding the network of the arguments.
-/
import proofs.«172637_j3650722202369_1_alg».proof.Proof.Gen.KernelIdeal.Frame
import proofs.«172637_j3650722202369_1_alg».proof.Proof.Arrays
import proofs.«172637_j3650722202369_1_alg».proof.Proof.Spec

set_option maxRecDepth 16384
set_option maxHeartbeats 8000000

noncomputable section

namespace Cert.KernelIdeal.Boundaries

open Idealize.ShloMosaic Idealize.ShloMosaic.TcCoe Idealize.SL.Sem Idealize.ShloMosaic.StableHlo
open Cert.KernelIdeal Cert.KernelIdeal.Gen Cert.KernelIdeal.Arrays Cert.Layers Cert.Spec

variable (m : (ℓ : Loc nD τ sig) → Buf (Elt Ideal) ℓ) (ρ : Dev nD → PrngReg) (c : Dev nD)

/-! ## Typed references at literal buffers

  The host function `@_where` is printed with its operands as typed references; a value read through one is
  transported along the equation between the buffer's declared type and the value's type.  At each of the literal
  buffers below the two types are the same, so the transport is the identity. -/

theorem toBuf_main_v16 (h1 : main_v16.ty = (⟨S100000, .f32⟩ : BufTy)) (h2 : main_v16.space ≠ .host) (h3 : main_v16.isScoped = false)
    (v : (⟨S100000, .f32⟩ : BufTy).Contents (Elt Ideal)) : (TRef.of main_v16 h1 h2 h3).toBuf v = v := rfl
theorem ofBuf_main_v16 (h1 : main_v16.ty = (⟨S100000, .f32⟩ : BufTy)) (h2 : main_v16.space ≠ .host) (h3 : main_v16.isScoped = false)
    (v : (⟨S100000, .f32⟩ : BufTy).Contents (Elt Ideal)) : (TRef.of main_v16 h1 h2 h3).ofBuf v = v := rfl

theorem toBuf_main_v14 (h1 : main_v14.ty = (⟨S100000, .i1⟩ : BufTy)) (h2 : main_v14.space ≠ .host) (h3 : main_v14.isScoped = false)
    (v : (⟨S100000, .i1⟩ : BufTy).Contents (Elt Ideal)) : (TRef.of main_v14 h1 h2 h3).toBuf v = v := rfl
theorem ofBuf_main_v14 (h1 : main_v14.ty = (⟨S100000, .i1⟩ : BufTy)) (h2 : main_v14.space ≠ .host) (h3 : main_v14.isScoped = false)
    (v : (⟨S100000, .i1⟩ : BufTy).Contents (Elt Ideal)) : (TRef.of main_v14 h1 h2 h3).ofBuf v = v := rfl

theorem toBuf_main_v15 (h1 : main_v15.ty = (⟨S100000, .f32⟩ : BufTy)) (h2 : main_v15.space ≠ .host) (h3 : main_v15.isScoped = false)
    (v : (⟨S100000, .f32⟩ : BufTy).Contents (Elt Ideal)) : (TRef.of main_v15 h1 h2 h3).toBuf v = v := rfl
theorem ofBuf_main_v15 (h1 : main_v15.ty = (⟨S100000, .f32⟩ : BufTy)) (h2 : main_v15.space ≠ .host) (h3 : main_v15.isScoped = false)
    (v : (⟨S100000, .f32⟩ : BufTy).Contents (Elt Ideal)) : (TRef.of main_v15 h1 h2 h3).ofBuf v = v := rfl

theorem toBuf_main_call0_v1 (h1 : main_call0_v1.ty = (⟨S100000, .f32⟩ : BufTy)) (h2 : main_call0_v1.space ≠ .host) (h3 : main_call0_v1.isScoped = false)
    (v : (⟨S100000, .f32⟩ : BufTy).Contents (Elt Ideal)) : (TRef.of main_call0_v1 h1 h2 h3).toBuf v = v := rfl
theorem ofBuf_main_call0_v1 (h1 : main_call0_v1.ty = (⟨S100000, .f32⟩ : BufTy)) (h2 : main_call0_v1.space ≠ .host) (h3 : main_call0_v1.isScoped = false)
    (v : (⟨S100000, .f32⟩ : BufTy).Contents (Elt Ideal)) : (TRef.of main_call0_v1 h1 h2 h3).ofBuf v = v := rfl

theorem toBuf_main_call0_v0 (h1 : main_call0_v0.ty = (⟨S_, .f32⟩ : BufTy)) (h2 : main_call0_v0.space ≠ .host) (h3 : main_call0_v0.isScoped = false)
    (v : (⟨S_, .f32⟩ : BufTy).Contents (Elt Ideal)) : (TRef.of main_call0_v0 h1 h2 h3).toBuf v = v := rfl
theorem ofBuf_main_call0_v0 (h1 : main_call0_v0.ty = (⟨S_, .f32⟩ : BufTy)) (h2 : main_call0_v0.space ≠ .host) (h3 : main_call0_v0.isScoped = false)
    (v : (⟨S_, .f32⟩ : BufTy).Contents (Elt Ideal)) : (TRef.of main_call0_v0 h1 h2 h3).ofBuf v = v := rfl

theorem toBuf_main_cst_2 (h1 : main_cst_2.ty = (⟨S_, .f32⟩ : BufTy)) (h2 : main_cst_2.space ≠ .host) (h3 : main_cst_2.isScoped = false)
    (v : (⟨S_, .f32⟩ : BufTy).Contents (Elt Ideal)) : (TRef.of main_cst_2 h1 h2 h3).toBuf v = v := rfl
theorem ofBuf_main_cst_2 (h1 : main_cst_2.ty = (⟨S_, .f32⟩ : BufTy)) (h2 : main_cst_2.space ≠ .host) (h3 : main_cst_2.isScoped = false)
    (v : (⟨S_, .f32⟩ : BufTy).Contents (Elt Ideal)) : (TRef.of main_cst_2 h1 h2 h3).ofBuf v = v := rfl

theorem toBuf_main_v60 (h1 : main_v60.ty = (⟨S100000, .f32⟩ : BufTy)) (h2 : main_v60.space ≠ .host) (h3 : main_v60.isScoped = false)
    (v : (⟨S100000, .f32⟩ : BufTy).Contents (Elt Ideal)) : (TRef.of main_v60 h1 h2 h3).toBuf v = v := rfl
theorem ofBuf_main_v60 (h1 : main_v60.ty = (⟨S100000, .f32⟩ : BufTy)) (h2 : main_v60.space ≠ .host) (h3 : main_v60.isScoped = false)
    (v : (⟨S100000, .f32⟩ : BufTy).Contents (Elt Ideal)) : (TRef.of main_v60 h1 h2 h3).ofBuf v = v := rfl

theorem toBuf_main_v58 (h1 : main_v58.ty = (⟨S100000, .i1⟩ : BufTy)) (h2 : main_v58.space ≠ .host) (h3 : main_v58.isScoped = false)
    (v : (⟨S100000, .i1⟩ : BufTy).Contents (Elt Ideal)) : (TRef.of main_v58 h1 h2 h3).toBuf v = v := rfl
theorem ofBuf_main_v58 (h1 : main_v58.ty = (⟨S100000, .i1⟩ : BufTy)) (h2 : main_v58.space ≠ .host) (h3 : main_v58.isScoped = false)
    (v : (⟨S100000, .i1⟩ : BufTy).Contents (Elt Ideal)) : (TRef.of main_v58 h1 h2 h3).ofBuf v = v := rfl

theorem toBuf_main_v59 (h1 : main_v59.ty = (⟨S100000, .f32⟩ : BufTy)) (h2 : main_v59.space ≠ .host) (h3 : main_v59.isScoped = false)
    (v : (⟨S100000, .f32⟩ : BufTy).Contents (Elt Ideal)) : (TRef.of main_v59 h1 h2 h3).toBuf v = v := rfl
theorem ofBuf_main_v59 (h1 : main_v59.ty = (⟨S100000, .f32⟩ : BufTy)) (h2 : main_v59.space ≠ .host) (h3 : main_v59.isScoped = false)
    (v : (⟨S100000, .f32⟩ : BufTy).Contents (Elt Ideal)) : (TRef.of main_v59 h1 h2 h3).ofBuf v = v := rfl

theorem toBuf_main_call1_v1 (h1 : main_call1_v1.ty = (⟨S100000, .f32⟩ : BufTy)) (h2 : main_call1_v1.space ≠ .host) (h3 : main_call1_v1.isScoped = false)
    (v : (⟨S100000, .f32⟩ : BufTy).Contents (Elt Ideal)) : (TRef.of main_call1_v1 h1 h2 h3).toBuf v = v := rfl
theorem ofBuf_main_call1_v1 (h1 : main_call1_v1.ty = (⟨S100000, .f32⟩ : BufTy)) (h2 : main_call1_v1.space ≠ .host) (h3 : main_call1_v1.isScoped = false)
    (v : (⟨S100000, .f32⟩ : BufTy).Contents (Elt Ideal)) : (TRef.of main_call1_v1 h1 h2 h3).ofBuf v = v := rfl

theorem toBuf_main_call1_v0 (h1 : main_call1_v0.ty = (⟨S_, .f32⟩ : BufTy)) (h2 : main_call1_v0.space ≠ .host) (h3 : main_call1_v0.isScoped = false)
    (v : (⟨S_, .f32⟩ : BufTy).Contents (Elt Ideal)) : (TRef.of main_call1_v0 h1 h2 h3).toBuf v = v := rfl
theorem ofBuf_main_call1_v0 (h1 : main_call1_v0.ty = (⟨S_, .f32⟩ : BufTy)) (h2 : main_call1_v0.space ≠ .host) (h3 : main_call1_v0.isScoped = false)
    (v : (⟨S_, .f32⟩ : BufTy).Contents (Elt Ideal)) : (TRef.of main_call1_v0 h1 h2 h3).ofBuf v = v := rfl

theorem toBuf_main_cst_12 (h1 : main_cst_12.ty = (⟨S_, .f32⟩ : BufTy)) (h2 : main_cst_12.space ≠ .host) (h3 : main_cst_12.isScoped = false)
    (v : (⟨S_, .f32⟩ : BufTy).Contents (Elt Ideal)) : (TRef.of main_cst_12 h1 h2 h3).toBuf v = v := rfl
theorem ofBuf_main_cst_12 (h1 : main_cst_12.ty = (⟨S_, .f32⟩ : BufTy)) (h2 : main_cst_12.space ≠ .host) (h3 : main_cst_12.isScoped = false)
    (v : (⟨S_, .f32⟩ : BufTy).Contents (Elt Ideal)) : (TRef.of main_cst_12 h1 h2 h3).ofBuf v = v := rfl

/-! ## After the first stretch (W1) -/

theorem w1_arg0 : W1 m ρ c (Proc.devRef .tc main_arg0) = (m ((c : Thread nD τ).loc main_arg0)) := by
  show StableHlo.after hostOps0 (W0 m ρ c) (Proc.devRef .tc main_arg0) = _
  after_results_simp

theorem w1_arg2 : W1 m ρ c (Proc.devRef .tc main_arg2) = (m ((c : Thread nD τ).loc main_arg2)) := by
  show StableHlo.after hostOps0 (W0 m ρ c) (Proc.devRef .tc main_arg2) = _
  after_results_simp

theorem w1_arg3 : W1 m ρ c (Proc.devRef .tc main_arg3) = (m ((c : Thread nD τ).loc main_arg3)) := by
  show StableHlo.after hostOps0 (W0 m ρ c) (Proc.devRef .tc main_arg3) = _
  after_results_simp

theorem w1_arg4 : W1 m ρ c (Proc.devRef .tc main_arg4) = (m ((c : Thread nD τ).loc main_arg4)) := by
  show StableHlo.after hostOps0 (W0 m ρ c) (Proc.devRef .tc main_arg4) = _
  after_results_simp

theorem w1_arg5 : W1 m ρ c (Proc.devRef .tc main_arg5) = (m ((c : Thread nD τ).loc main_arg5)) := by
  show StableHlo.after hostOps0 (W0 m ρ c) (Proc.devRef .tc main_arg5) = _
  after_results_simp

theorem w1_arg6 : W1 m ρ c (Proc.devRef .tc main_arg6) = (m ((c : Thread nD τ).loc main_arg6)) := by
  show StableHlo.after hostOps0 (W0 m ρ c) (Proc.devRef .tc main_arg6) = _
  after_results_simp

/-- One row of the edge list, as the reference cuts it out. -/
theorem w1_v1 : W1 m ρ c (Proc.devRef .tc main_v1) = Cert.ReferenceIdeal.Read.val_main_v1 (F := Ideal) (m ((c : Thread nD τ).loc main_arg1)) := by
  show StableHlo.after hostOps0 (W0 m ρ c) (Proc.devRef .tc main_v1) = _
  after_results_simp
  rfl

/-- One row of the edge list, as the reference cuts it out. -/
theorem w1_v3 : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results_simp
  rfl

/-! ## After the first product region (W2) -/

theorem w2_v1 : W2 m ρ c (Proc.devRef .tc main_v1) = Cert.ReferenceIdeal.Read.val_main_v1 (F := Ideal) (m ((c : Thread nD τ).loc main_arg1)) :=
  (W2_of_ne m ρ c main_v1 (by decide)).trans (w1_v1 m ρ c)

theorem w2_v3 : W2 m ρ c (Proc.devRef .tc main_v3) = Cert.ReferenceIdeal.Read.val_main_v3 (F := Ideal) (m ((c : Thread nD τ).loc main_arg1)) :=
  (W2_of_ne m ρ c main_v3 (by decide)).trans (w1_v3 m ρ c)

theorem w2_arg2 : W2 m ρ c (Proc.devRef .tc main_arg2) = (m ((c : Thread nD τ).loc main_arg2)) :=
  (W2_of_ne m ρ c main_arg2 (by decide)).trans (w1_arg2 m ρ c)

theorem w2_arg4 : W2 m ρ c (Proc.devRef .tc main_arg4) = (m ((c : Thread nD τ).loc main_arg4)) :=
  (W2_of_ne m ρ c main_arg4 (by decide)).trans (w1_arg4 m ρ c)

theorem w2_arg5 : W2 m ρ c (Proc.devRef .tc main_arg5) = (m ((c : Thread nD τ).loc main_arg5)) :=
  (W2_of_ne m ρ c main_arg5 (by decide)).trans (w1_arg5 m ρ c)

theorem w2_arg6 : W2 m ρ c (Proc.devRef .tc main_arg6) = (m ((c : Thread nD τ).loc main_arg6)) :=
  (W2_of_ne m ρ c main_arg6 (by decide)).trans (w1_arg6 m ρ c)

/-- The first layer's product. -/
theorem w2_v4 : W2 m ρ c (Proc.devRef .tc main_v4) = (mm (n := 100000) (k := 128) (c := 128) (m ((c : Thread nD τ).loc main_arg0)) (m ((c : Thread nD τ).loc main_arg3))) := by
  refine (W2_arr m ρ c 2).trans ((arr0 (V1 m ρ) c).trans ?_)
  show mm (n := 100000) (k := 128) (c := 128) (W1 m ρ c (Proc.devRef .tc main_arg0)) (W1 m ρ c (Proc.devRef .tc main_arg3)) = _
  rw [w1_arg0, w1_arg3]

/-! ## After the first aggregation (W5) -/

theorem w5_keeps_v1 : W5 m ρ c (Proc.devRef .tc main_v1) = W2 m ρ c (Proc.devRef .tc main_v1) := by
  show StableHlo.after hostOps1_2 (StableHlo.after hostOps1_1 (StableHlo.after hostOps1 (W2 m ρ c))) (Proc.devRef .tc main_v1) = _
  after_results_simp

theorem w5_keeps_v3 : W5 m ρ c (Proc.devRef .tc main_v3) = W2 m ρ c (Proc.devRef .tc main_v3) := by
  show StableHlo.after hostOps1_2 (StableHlo.after hostOps1_1 (StableHlo.after hostOps1 (W2 m ρ c))) (Proc.devRef .tc main_v3) = _
  after_results_simp

theorem w5_keeps_arg2 : W5 m ρ c (Proc.devRef .tc main_arg2) = W2 m ρ c (Proc.devRef .tc main_arg2) := by
  show StableHlo.after hostOps1_2 (StableHlo.after hostOps1_1 (StableHlo.after hostOps1 (W2 m ρ c))) (Proc.devRef .tc main_arg2) = _
  after_results_simp

theorem w5_keeps_arg5 : W5 m ρ c (Proc.devRef .tc main_arg5) = W2 m ρ c (Proc.devRef .tc main_arg5) := by
  show StableHlo.after hostOps1_2 (StableHlo.after hostOps1_1 (StableHlo.after hostOps1 (W2 m ρ c))) (Proc.devRef .tc main_arg5) = _
  after_results_simp

theorem w5_keeps_arg6 : W5 m ρ c (Proc.devRef .tc main_arg6) = W2 m ρ c (Proc.devRef .tc main_arg6) := by
  show StableHlo.after hostOps1_2 (StableHlo.after hostOps1_1 (StableHlo.after hostOps1 (W2 m ρ c))) (Proc.devRef .tc main_arg6) = _
  after_results_simp

/-- The first aggregation: the host operations between the two regions, applied to the product, are `agg128`. -/
theorem w5_v45 : W5 m ρ c (Proc.devRef .tc main_v45) = (agg128 (mm (n := 100000) (k := 128) (c := 128) (m ((c : Thread nD τ).loc main_arg0)) (m ((c : Thread nD τ).loc main_arg3))) (m ((c : Thread nD τ).loc main_arg1)) (m ((c : Thread nD τ).loc main_arg2))) := by
  show StableHlo.after hostOps1_2 (StableHlo.after hostOps1_1 (StableHlo.after hostOps1 (W2 m ρ c))) (Proc.devRef .tc main_v45) = _
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rw [w2_v4, w2_v1, w2_v3, w2_arg2]
  rw [toBuf_main_v16, ofBuf_main_v14, ofBuf_main_v15, ofBuf_main_call0_v1, toBuf_main_call0_v1, ofBuf_main_call0_v0, toBuf_main_call0_v0, ofBuf_main_cst_2]
  unfold agg128
  simp only [Cert.ReferenceIdeal.Read.val_main_v5,
    Cert.ReferenceIdeal.Read.val_main_v6,
    Cert.ReferenceIdeal.Read.val_main_v7,
    Cert.ReferenceIdeal.Read.val_main_cst,
    Cert.ReferenceIdeal.Read.val_main_v8,
    Cert.ReferenceIdeal.Read.val_main_v9,
    Cert.ReferenceIdeal.Read.val_main_cst_0,
    Cert.ReferenceIdeal.Read.val_main_v10,
    Cert.ReferenceIdeal.Read.val_main_v11,
    Cert.ReferenceIdeal.Read.val_main_v12,
    Cert.ReferenceIdeal.Read.val_main_cst_1,
    Cert.ReferenceIdeal.Read.val_main_v13,
    Cert.ReferenceIdeal.Read.val_main_v14,
    Cert.ReferenceIdeal.Read.val_main_v15,
    Cert.ReferenceIdeal.Read.val_main_cst_2,
    Cert.ReferenceIdeal.Read.val_main_call0_v0,
    Cert.ReferenceIdeal.Read.val_main_call0_v1,
    Cert.ReferenceIdeal.Read.val_main_v16,
    Cert.ReferenceIdeal.Read.val_main_c,
    Cert.ReferenceIdeal.Read.val_main_v17,
    Cert.ReferenceIdeal.Read.val_main_v18,
    Cert.ReferenceIdeal.Read.val_main_c_3,
    Cert.ReferenceIdeal.Read.val_main_v19,
    Cert.ReferenceIdeal.Read.val_main_v20,
    Cert.ReferenceIdeal.Read.val_main_v21,
    Cert.ReferenceIdeal.Read.val_main_v22,
    Cert.ReferenceIdeal.Read.val_main_v23,
    Cert.ReferenceIdeal.Read.val_main_v24,
    Cert.ReferenceIdeal.Read.val_main_c_4,
    Cert.ReferenceIdeal.Read.val_main_v25,
    Cert.ReferenceIdeal.Read.val_main_v26,
    Cert.ReferenceIdeal.Read.val_main_c_5,
    Cert.ReferenceIdeal.Read.val_main_v27,
    Cert.ReferenceIdeal.Read.val_main_v28,
    Cert.ReferenceIdeal.Read.val_main_v29,
    Cert.ReferenceIdeal.Read.val_main_v30,
    Cert.ReferenceIdeal.Read.val_main_v31,
    Cert.ReferenceIdeal.Read.val_main_v32,
    Cert.ReferenceIdeal.Read.val_main_v33,
    Cert.ReferenceIdeal.Read.val_main_c_6,
    Cert.ReferenceIdeal.Read.val_main_v34,
    Cert.ReferenceIdeal.Read.val_main_v35,
    Cert.ReferenceIdeal.Read.val_main_c_7,
    Cert.ReferenceIdeal.Read.val_main_v36,
    Cert.ReferenceIdeal.Read.val_main_v37,
    Cert.ReferenceIdeal.Read.val_main_v38,
    Cert.ReferenceIdeal.Read.val_main_v39,
    Cert.ReferenceIdeal.Read.val_main_v41,
    Cert.ReferenceIdeal.Read.val_main_cst_8,
    Cert.ReferenceIdeal.Read.val_main_v43,
    Cert.ReferenceIdeal.Read.val_main_v44]
  rfl

/-- The first bias as a row. -/
theorem w5_v46 : W5 m ρ c (Proc.devRef .tc main_v46) = shapeCast S1x128 (m ((c : Thread nD τ).loc main_arg4)) shapeCasts_S128_S1x128 := by
  show StableHlo.after hostOps1_2 (StableHlo.after hostOps1_1 (StableHlo.after hostOps1 (W2 m ρ c))) (Proc.devRef .tc main_v46) = _
  after_results_simp
  rw [w2_arg4]
  rfl

/-! ## After the first bias region (W6) -/

theorem w6_v1 : W6 m ρ c (Proc.devRef .tc main_v1) = Cert.ReferenceIdeal.Read.val_main_v1 (F := Ideal) (m ((c : Thread nD τ).loc main_arg1)) :=
  (W6_of_ne m ρ c main_v1 (by decide)).trans ((w5_keeps_v1 m ρ c).trans (w2_v1 m ρ c))

theorem w6_v3 : W6 m ρ c (Proc.devRef .tc main_v3) = Cert.ReferenceIdeal.Read.val_main_v3 (F := Ideal) (m ((c : Thread nD τ).loc main_arg1)) :=
  (W6_of_ne m ρ c main_v3 (by decide)).trans ((w5_keeps_v3 m ρ c).trans (w2_v3 m ρ c))

theorem w6_arg2 : W6 m ρ c (Proc.devRef .tc main_arg2) = (m ((c : Thread nD τ).loc main_arg2)) :=
  (W6_of_ne m ρ c main_arg2 (by decide)).trans ((w5_keeps_arg2 m ρ c).trans (w2_arg2 m ρ c))

theorem w6_arg5 : W6 m ρ c (Proc.devRef .tc main_arg5) = (m ((c : Thread nD τ).loc main_arg5)) :=
  (W6_of_ne m ρ c main_arg5 (by decide)).trans ((w5_keeps_arg5 m ρ c).trans (w2_arg5 m ρ c))

theorem w6_arg6 : W6 m ρ c (Proc.devRef .tc main_arg6) = (m ((c : Thread nD τ).loc main_arg6)) :=
  (W6_of_ne m ρ c main_arg6 (by decide)).trans ((w5_keeps_arg6 m ρ c).trans (w2_arg6 m ρ c))

/-- The first layer's output. -/
theorem w6_v47 : W6 m ρ c (Proc.devRef .tc main_v47) = (biasRelu (n := 100000) (c := 128) (agg128 (mm (n := 100000) (k := 128) (c := 128) (m ((c : Thread nD τ).loc main_arg0)) (m ((c : Thread nD τ).loc main_arg3))) (m ((c : Thread nD τ).loc main_arg1)) (m ((c : Thread nD τ).loc main_arg2))) (m ((c : Thread nD τ).loc main_arg4))) := by
  refine (W6_arr m ρ c 2).trans ((arr1 (V5 m ρ) c).trans ?_)
  show biasReluRow (n := 100000) (c := 128) (W5 m ρ c (Proc.devRef .tc main_v45)) (W5 m ρ c (Proc.devRef .tc main_v46)) = _
  rw [w5_v45, w5_v46]
  exact biasReluRow_cast shapeCasts_S128_S1x128 _ (m ((c : Thread nD τ).loc main_arg4))

/-! ## After the second product region (W7) -/

theorem w7_v1 : W7 m ρ c (Proc.devRef .tc main_v1) = Cert.ReferenceIdeal.Read.val_main_v1 (F := Ideal) (m ((c : Thread nD τ).loc main_arg1)) :=
  (W7_of_ne m ρ c main_v1 (by decide)).trans (w6_v1 m ρ c)

theorem w7_v3 : W7 m ρ c (Proc.devRef .tc main_v3) = Cert.ReferenceIdeal.Read.val_main_v3 (F := Ideal) (m ((c : Thread nD τ).loc main_arg1)) :=
  (W7_of_ne m ρ c main_v3 (by decide)).trans (w6_v3 m ρ c)

theorem w7_arg2 : W7 m ρ c (Proc.devRef .tc main_arg2) = (m ((c : Thread nD τ).loc main_arg2)) :=
  (W7_of_ne m ρ c main_arg2 (by decide)).trans (w6_arg2 m ρ c)

theorem w7_arg6 : W7 m ρ c (Proc.devRef .tc main_arg6) = (m ((c : Thread nD τ).loc main_arg6)) :=
  (W7_of_ne m ρ c main_arg6 (by decide)).trans (w6_arg6 m ρ c)

/-- The second layer's product. -/
theorem w7_v48 : W7 m ρ c (Proc.devRef .tc main_v48) = (mm (n := 100000) (k := 128) (c := 64) (biasRelu (n := 100000) (c := 128) (agg128 (mm (n := 100000) (k := 128) (c := 128) (m ((c : Thread nD τ).loc main_arg0)) (m ((c : Thread nD τ).loc main_arg3))) (m ((c : Thread nD τ).loc main_arg1)) (m ((c : Thread nD τ).loc main_arg2))) (m ((c : Thread nD τ).loc main_arg4))) (m ((c : Thread nD τ).loc main_arg5))) := by
  refine (W7_arr m ρ c 2).trans ((arr2 (V6 m ρ) c).trans ?_)
  show mm (n := 100000) (k := 128) (c := 64) (W6 m ρ c (Proc.devRef .tc main_v47)) (W6 m ρ c (Proc.devRef .tc main_arg5)) = _
  rw [w6_v47, w6_arg5]

/-! ## After the second aggregation (W10) -/

/-- The second aggregation. -/
theorem w10_v89 : W10 m ρ c (Proc.devRef .tc main_v89) = (agg64 (mm (n := 100000) (k := 128) (c := 64) (biasRelu (n := 100000) (c := 128) (agg128 (mm (n := 100000) (k := 128) (c := 128) (m ((c : Thread nD τ).loc main_arg0)) (m ((c : Thread nD τ).loc main_arg3))) (m ((c : Thread nD τ).loc main_arg1)) (m ((c : Thread nD τ).loc main_arg2))) (m ((c : Thread nD τ).loc main_arg4))) (m ((c : Thread nD τ).loc main_arg5))) (m ((c : Thread nD τ).loc main_arg1)) (m ((c : Thread nD τ).loc main_arg2))) := by
  show StableHlo.after hostOps3_2 (StableHlo.after hostOps3_1 (StableHlo.after hostOps3 (W7 m ρ c))) (Proc.devRef .tc main_v89) = _
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rw [w7_v48, w7_v1, w7_v3, w7_arg2]
  rw [toBuf_main_v60, ofBuf_main_v58, ofBuf_main_v59, ofBuf_main_call1_v1, toBuf_main_call1_v1, ofBuf_main_call1_v0, toBuf_main_call1_v0, ofBuf_main_cst_12]
  unfold agg64
  simp only [Cert.ReferenceIdeal.Read.val_main_v51,
    Cert.ReferenceIdeal.Read.val_main_v52,
    Cert.ReferenceIdeal.Read.val_main_v53,
    Cert.ReferenceIdeal.Read.val_main_cst_9,
    Cert.ReferenceIdeal.Read.val_main_v54,
    Cert.ReferenceIdeal.Read.val_main_v55,
    Cert.ReferenceIdeal.Read.val_main_cst_10,
    Cert.ReferenceIdeal.Read.val_main_v56,
    Cert.ReferenceIdeal.Read.val_main_v57,
    Cert.ReferenceIdeal.Read.val_main_v58,
    Cert.ReferenceIdeal.Read.val_main_cst_11,
    Cert.ReferenceIdeal.Read.val_main_v59,
    Cert.ReferenceIdeal.Read.val_main_v60,
    Cert.ReferenceIdeal.Read.val_main_v61,
    Cert.ReferenceIdeal.Read.val_main_cst_12,
    Cert.ReferenceIdeal.Read.val_main_call2_v0,
    Cert.ReferenceIdeal.Read.val_main_call2_v1,
    Cert.ReferenceIdeal.Read.val_main_v62,
    Cert.ReferenceIdeal.Read.val_main_c_13,
    Cert.ReferenceIdeal.Read.val_main_v63,
    Cert.ReferenceIdeal.Read.val_main_v64,
    Cert.ReferenceIdeal.Read.val_main_c_14,
    Cert.ReferenceIdeal.Read.val_main_v65,
    Cert.ReferenceIdeal.Read.val_main_v66,
    Cert.ReferenceIdeal.Read.val_main_v67,
    Cert.ReferenceIdeal.Read.val_main_v68,
    Cert.ReferenceIdeal.Read.val_main_v69,
    Cert.ReferenceIdeal.Read.val_main_v70,
    Cert.ReferenceIdeal.Read.val_main_c_15,
    Cert.ReferenceIdeal.Read.val_main_v71,
    Cert.ReferenceIdeal.Read.val_main_v72,
    Cert.ReferenceIdeal.Read.val_main_c_16,
    Cert.ReferenceIdeal.Read.val_main_v73,
    Cert.ReferenceIdeal.Read.val_main_v74,
    Cert.ReferenceIdeal.Read.val_main_v75,
    Cert.ReferenceIdeal.Read.val_main_v76,
    Cert.ReferenceIdeal.Read.val_main_v77,
    Cert.ReferenceIdeal.Read.val_main_v78,
    Cert.ReferenceIdeal.Read.val_main_v79,
    Cert.ReferenceIdeal.Read.val_main_c_17,
    Cert.ReferenceIdeal.Read.val_main_v80,
    Cert.ReferenceIdeal.Read.val_main_v81,
    Cert.ReferenceIdeal.Read.val_main_c_18,
    Cert.ReferenceIdeal.Read.val_main_v82,
    Cert.ReferenceIdeal.Read.val_main_v83,
    Cert.ReferenceIdeal.Read.val_main_v84,
    Cert.ReferenceIdeal.Read.val_main_v85,
    Cert.ReferenceIdeal.Read.val_main_v87,
    Cert.ReferenceIdeal.Read.val_main_cst_19,
    Cert.ReferenceIdeal.Read.val_main_v89,
    Cert.ReferenceIdeal.Read.val_main_v90]
  rfl

/-- The second bias as a row. -/
theorem w10_v90 : W10 m ρ c (Proc.devRef .tc main_v90) = shapeCast S1x64 (m ((c : Thread nD τ).loc main_arg6)) shapeCasts_S64_S1x64 := by
  show StableHlo.after hostOps3_2 (StableHlo.after hostOps3_1 (StableHlo.after hostOps3 (W7 m ρ c))) (Proc.devRef .tc main_v90) = _
  after_results_simp
  rw [w7_arg6]
  rfl

/-! ## The result (W11) -/

/-- The result array ends holding the network of the arguments. -/
theorem result : W11 m ρ c (Proc.devRef .tc main_v91)
    = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W11_arr m ρ c 2).trans ((arr3 (V10 m ρ) c).trans ?_)
  show addBiasRow (n := 100000) (c := 64) (W10 m ρ c (Proc.devRef .tc main_v89)) (W10 m ρ c (Proc.devRef .tc main_v90)) = _
  rw [w10_v89, w10_v90]
  exact addBiasRow_cast shapeCasts_S64_S1x64 _ (m ((c : Thread nD τ).loc main_arg6))

end Cert.KernelIdeal.Boundaries

end
-- ==== Proof.lean ====
/-
  A two-layer graph convolution over 100000 nodes and 1600000 weighted edges: the kernel program against its plain
  reference, over the extended reals.

  Both programs compute   out = Â·(relu(Â·(x·W1) + b1)·W2) + b2,   with Â the symmetric-normalised aggregation
  along the edges and the self loops.  They spell Â with the very same host operations, so it never has to be
  opened: it is one function of the features, the edge list and the edge weights (module Spec).  The programs
  differ in the dense parts only.  The kernel computes each product x·W in a grid region, ten row blocks of 10000
  rows, each block's product accumulated from zero with operands narrowed to a shorter float format — on
  extended reals the narrowing is the identity and the block's entry (r, q) is the sum over the inner coordinate
  of the products of entries, which is the reference's `dot_general` entry.  It adds each bias (and takes the
  positive part after the first) in a grid region as well, the bias passed as a 1 × C row; the reference
  broadcasts the vector and adds, and takes a maximum with the zero splat.  No law of the extended reals beyond
  the meaning of these operations is needed: the sums keep their order, nothing is distributed or cancelled, and
  the finiteness of the inputs is never used.

  * Blocks:      each region's body maps a row block of its input to the same row block of the layer function.
  * Arrays:      the ten blocks tile the rows, so each region's output array is the layer function of its inputs.
  * ResultRun:   the run of the four-region program with its result array named.
  * Boundaries:  the buffer contents from boundary to boundary; the result array is the network of the arguments.
  * Spec:        the network, and the reference's result as the network.

  The three frames are the generated ones (the reference's is its generated run with the result dropped), and the
  kernel's idealization rewrote nothing, so that conjunct is trivial.
-/
import proofs.«172637_j3650722202369_1_alg».proof.Defs
import proofs.«172637_j3650722202369_1_alg».proof.Proof.Gen.Kernel
import proofs.«172637_j3650722202369_1_alg».proof.Proof.Gen.Kernel.Skeleton
import proofs.«172637_j3650722202369_1_alg».proof.Proof.Gen.Kernel.Launch
import proofs.«172637_j3650722202369_1_alg».proof.Proof.Gen.Kernel.Points
import proofs.«172637_j3650722202369_1_alg».proof.Proof.Gen.Kernel.Frame
import proofs.«172637_j3650722202369_1_alg».proof.Proof.Gen.KernelIdeal
import proofs.«172637_j3650722202369_1_alg».proof.Proof.Gen.KernelIdeal.Skeleton
import proofs.«172637_j3650722202369_1_alg».proof.Proof.Gen.KernelIdeal.Launch
import proofs.«172637_j3650722202369_1_alg».proof.Proof.Gen.KernelIdeal.Points
import proofs.«172637_j3650722202369_1_alg».proof.Proof.Gen.KernelIdeal.Frame
import proofs.«172637_j3650722202369_1_alg».proof.Proof.Gen.ReferenceIdeal
import proofs.«172637_j3650722202369_1_alg».proof.Proof.Gen.Pre_finite_inputs
import proofs.«172637_j3650722202369_1_alg».proof.Proof.Gen.ReferenceIdeal.Run
import proofs.«172637_j3650722202369_1_alg».proof.Proof.Gen.ReferenceIdeal.Read
import proofs.«172637_j3650722202369_1_alg».proof.Proof.ResultRun
import proofs.«172637_j3650722202369_1_alg».proof.Proof.Boundaries
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the network of the (agreeing) arguments in the result array. -/
theorem algebraic : Cert.algebraic_KernelIdeal_ReferenceIdeal := by
  intro m ρ m' ρ' _ hagree
  refine ⟨fun c => Cert.Spec.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Boundaries.result m ρ c), (h c).2⟩)
      (Cert.KernelIdeal.ResultRun.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v94_eq, Cert.Spec.reference_eq,
      (hagree c).1, (hagree c).2.1, (hagree c).2.2.1, (hagree c).2.2.2.1, (hagree c).2.2.2.2.1,
      (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
